-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S1x128 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128 .f32) (main_arg9 : FVec F S1x128 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000x64 .f32) (main_arg3 : FVec F S128x64 .f32) (main_arg4 : FVec F S128 .f32) (main_arg5 : FVec F S128x128 .f32) (main_arg6 : FVec F S128 .f32) (main_arg7 : FVec F S128x128 .f32) (main_arg8 : FVec F S128 .f32) (main_arg9 : FVec F S1x128 .f32) (main_arg10 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S400000x128 : Shape := ⟨2, ![400000, 128]⟩
abbrev S64x128 : Shape := ⟨2, ![64, 128]⟩
abbrev S_ : Shape := ⟨0, ![]⟩
abbrev S64x256 : Shape := ⟨2, ![64, 256]⟩
abbrev S128x256 : Shape := ⟨2, ![128, 256]⟩
abbrev S256x256 : Shape := ⟨2, ![256, 256]⟩
abbrev S256 : Shape := ⟨1, ![256]⟩
abbrev S1x256 : Shape := ⟨2, ![1, 256]⟩
abbrev S1x1 : Shape := ⟨2, ![1, 1]⟩
abbrev S400000x2 : Shape := ⟨2, ![400000, 2]⟩
abbrev S8000x128 : Shape := ⟨2, ![8000, 128]⟩
abbrev S8000x2 : Shape := ⟨2, ![8000, 2]⟩
abbrev S8000x256 : Shape := ⟨2, ![8000, 256]⟩
abbrev S8000 : Shape := ⟨1, ![8000]⟩
abbrev S8000x1 : Shape := ⟨2, ![8000, 1]⟩
abbrev S800000 : Shape := ⟨1, ![800000]⟩

abbrev nBuf : Space → Nat
  | .hbm => 42
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1, .f32⟩
  | .hbm, ⟨11, _⟩ => ⟨S400000x128, .f32⟩
  | .hbm, ⟨12, _⟩ => ⟨S64x128, .f32⟩
  | .hbm, ⟨13, _⟩ => ⟨S_, .f32⟩
  | .hbm, ⟨14, _⟩ => ⟨S64x128, .f32⟩
  | .hbm, ⟨15, _⟩ => ⟨S64x256, .f32⟩
  | .hbm, ⟨16, _⟩ => ⟨S64x256, .f32⟩
  | .hbm, ⟨17, _⟩ => ⟨S128x256, .f32⟩
  | .hbm, ⟨18, _⟩ => ⟨S128x256, .bf16⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x256, .f32⟩
  | .hbm, ⟨23, _⟩ => ⟨S128x256, .f32⟩
  | .hbm, ⟨24, _⟩ => ⟨S256x256, .f32⟩
  | .hbm, ⟨25, _⟩ => ⟨S256x256, .bf16⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x256, .f32⟩
  | .hbm, ⟨30, _⟩ => ⟨S128x256, .f32⟩
  | .hbm, ⟨31, _⟩ => ⟨S256x256, .f32⟩
  | .hbm, ⟨32, _⟩ => ⟨S256x256, .bf16⟩
  | .hbm, ⟨33, _⟩ => ⟨S256, .f32⟩
  | .hbm, ⟨34, _⟩ => ⟨S1x256, .f32⟩
  | .hbm, ⟨35, _⟩ => ⟨S256, .f32⟩
  | .hbm, ⟨36, _⟩ => ⟨S1x256, .f32⟩
  | .hbm, ⟨37, _⟩ => ⟨S256, .f32⟩
  | .hbm, ⟨38, _⟩ => ⟨S1x256, .f32⟩
  | .hbm, ⟨39, _⟩ => ⟨S1x1, .f32⟩
  | .hbm, ⟨40, _⟩ => ⟨S400000x2, .f32⟩
  | .hbm, ⟨41, _⟩ => ⟨S800000, .f32⟩
  | .local _ .vmem, ⟨0, _⟩ => ⟨S8000x128, .f32⟩
  | .local _ .vmem, ⟨1, _⟩ => ⟨S8000x128, .f32⟩
  | .local _ .vmem, ⟨2, _⟩ => ⟨S128x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S1x128, .f32⟩
  | .local _ .vmem, ⟨9, _⟩ => ⟨S1x1, .f32⟩
  | .local _ .vmem, ⟨10, _⟩ => ⟨S8000x2, .f32⟩
  | .local _ .vmem, ⟨11, _⟩ => ⟨S8000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S800000x64_S400000x128 : S800000x64.ShapeCasts S400000x128
  transposes_S128x64_S64x128_1_0 : S128x64.Transposes [1, 0] S64x128
  bcast_S_S64x128 : S_.BroadcastsInDim S64x128 (![] : Fin 0 → Fin S64x128.rank)
  concatenates_S64x128_S64x128_S64x256_d1 : Shape.Concatenates [S64x128, S64x128] S64x256 1
  concatenates_S64x256_S64x256_S128x256_d0 : Shape.Concatenates [S64x256, S64x256] S128x256 0
  bitsLt_bf16_f32 : FTy.bits .bf16 < FTy.bits .f32
  transposes_S128x128_S128x128_1_0 : S128x128.Transposes [1, 0] S128x128
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  concatenates_S128_S128_S256_d0 : Shape.Concatenates [S128, S128] S256 0
  shapeCasts_S256_S1x256 : S256.ShapeCasts S1x256
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x128_S1x128_0_0 : ∀ a, (![0, 0] : Fin 2 → Nat) a + S1x128.size a ≤ S1x128.size a
  h_S1x128 : 0 < S1x128.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S8000x256_o0_0_S8000x128 : S8000x256.Slices ![0, 0] S8000x128
  slices_S8000x256_o0_128_S8000x128 : S8000x256.Slices ![0, 128] S8000x128
  broadcasts_S1x128_S8000x128 : S1x128.Broadcasts S8000x128
  reduces_S8000x128_S8000 : S8000x128.Reduces [1] S8000
  shapeCasts_S8000_S8000x1 : S8000.ShapeCasts S8000x1
  broadcasts_S1x1_S8000x1 : S1x1.Broadcasts S8000x1
  inb_S8000x2_S8000x1_0_0 : ∀ a, (![0, 0] : Fin 2 → Nat) a + S8000x1.size a ≤ S8000x2.size a
  h_S8000x1 : 0 < S8000x1.numel
  inb_S8000x2_S8000x1_0_1 : ∀ a, (![0, 1] : Fin 2 → Nat) a + S8000x1.size a ≤ S8000x2.size a
  shapeCasts_S400000x2_S800000 : S400000x2.ShapeCasts S800000
  dot_S8000x128_S128x256_S8000x256_1_0_0_1_n_n_wf : DotDims.WF S8000x128 S128x256 S8000x256 [1] [0] [0] [1] [] []
  dot_S8000x256_S256x256_S8000x256_1_0_0_1_n_n_wf : DotDims.WF S8000x256 S256x256 S8000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x2.size a ≤ S400000x2.size a
  hwx0_9 : ∀ i : grid0.Coords, EltTy.bits .f32 = 32 ∨ (Rect.block (s := S400000x2) S8000x2.size (cc0_transform_9 i) (hinb0_9 i)).WholeWords (EltTy.packing .f32)

variable [Facts₀]

def dot_S8000x128_S128x256_S8000x256_1_0_0_1_n_n : DotDims S8000x128 S128x256 S8000x256 where
  lhsContracting := [1]
  rhsContracting := [0]
  lhsNonContracting := [0]
  rhsNonContracting := [1]
  lhsBatch := []
  rhsBatch := []
  wf := dot_S8000x128_S128x256_S8000x256_1_0_0_1_n_n_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf

abbrev win0_0 : Pipeline.Window sig grid0 :=
  Pipeline.Window.ofSpec (Memref.whole main_v0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S8000x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S128 : Shape := ⟨1, ![128]⟩
abbrev S128x128 : Shape := ⟨2, ![128, 128]⟩
abbrev S1x128 : Shape := ⟨2, ![1, 128]⟩
abbrev S1 : Shape := ⟨1, ![1]⟩
abbrev S64x128 : Shape := ⟨2, ![64, 128]⟩
abbrev S800000x128 : Shape := ⟨2, ![800000, 128]⟩
abbrev S128x1 : Shape := ⟨2, ![128, 1]⟩
abbrev S800000x1 : Shape := ⟨2, ![800000, 1]⟩
abbrev S1x1 : Shape := ⟨2, ![1, 1]⟩
abbrev S_ : Shape := ⟨0, ![]⟩
abbrev S800000 : Shape := ⟨1, ![800000]⟩

abbrev nBuf : Space → Nat
  | .hbm => 43
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1, .f32⟩
  | .hbm, ⟨11, _⟩ => ⟨S64x128, .f32⟩
  | .hbm, ⟨12, _⟩ => ⟨S800000x128, .f32⟩
  | .hbm, ⟨13, _⟩ => ⟨S1x128, .f32⟩
  | .hbm, ⟨14, _⟩ => ⟨S800000x128, .f32⟩
  | .hbm, ⟨15, _⟩ => ⟨S800000x128, .f32⟩
  | .hbm, ⟨16, _⟩ => ⟨S800000x128, .f32⟩
  | .hbm, ⟨17, _⟩ => ⟨S128x128, .f32⟩
  | .hbm, ⟨18, _⟩ => ⟨S800000x128, .f32⟩
  | .hbm, ⟨19, _⟩ => ⟨S1x128, .f32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S128x128, .f32⟩
  | .hbm, ⟨24, _⟩ => ⟨S800000x128, .f32⟩
  | .hbm, ⟨25, _⟩ => ⟨S1x128, .f32⟩
  | .hbm, ⟨26, _⟩ => ⟨S800000x128, .f32⟩
  | .hbm, ⟨27, _⟩ => ⟨S800000x128, .f32⟩
  | .hbm, ⟨28, _⟩ => ⟨S800000x128, .f32⟩
  | .hbm, ⟨29, _⟩ => ⟨S128x1, .f32⟩
  | .hbm, ⟨30, _⟩ => ⟨S800000x1, .f32⟩
  | .hbm, ⟨31, _⟩ => ⟨S1x1, .f32⟩
  | .hbm, ⟨32, _⟩ => ⟨S800000x1, .f32⟩
  | .hbm, ⟨33, _⟩ => ⟨S800000x1, .f32⟩
  | .hbm, ⟨34, _⟩ => ⟨S800000x1, .f32⟩
  | .hbm, ⟨35, _⟩ => ⟨S800000x1, .f32⟩
  | .hbm, ⟨36, _⟩ => ⟨S_, .f32⟩
  | .hbm, ⟨37, _⟩ => ⟨S800000x1, .f32⟩
  | .hbm, ⟨38, _⟩ => ⟨S800000x1, .f32⟩
  | .hbm, ⟨39, _⟩ => ⟨S_, .f32⟩
  | .hbm, ⟨40, _⟩ => ⟨S800000x1, .f32⟩
  | .hbm, ⟨41, _⟩ => ⟨S800000x1, .f32⟩
  | .hbm, ⟨42, _⟩ => ⟨S800000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  dot_S800000x64_S64x128_S800000x128_1_0_0_1_n_n_wf : DotDims.WF S800000x64 S64x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []

variable [Facts₀]

def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.LibBlockDiag.lean ====
/-
  The pairing law of a block-diagonal layer, on plain rows of extended reals.

  A dense layer takes a row `x` of `K` numbers to `c ↦ tanh (∑ k, x k · W c k + b c)` (the weight stored `[out, in]`).
  Put two rows side by side, a row of `K + K` numbers, and apply the layer whose `[in, out]` matrix is
  `diag (Wᵀ, Wᵀ)` with bias `(b, b)`: the left half of the result is the layer of the left row and the right half the
  layer of the right row.  A zero block contributes `x · 0 = 0` to each sum, for every extended real `x`, and a sum
  over `K + K` positions splits into its two halves, so nothing here needs finiteness.
-/
import Idealize.ShloMosaic.PureOps.Ideal
import Mathlib.Algebra.BigOperators.Fin

noncomputable section

namespace Cert.Mlp

open Idealize.ShloMosaic

/-- A dense layer with `tanh`, the weight stored `[out, in]`. -/
def dense {K N : ℕ} (x : Fin K → EReal) (W : Fin N → Fin K → EReal) (b : Fin N → EReal) : Fin N → EReal :=
  fun c => Ideal.tanh ((∑ k : Fin K, x k * W c k) + b c)

/-- A layer applied to a paired row through a general `[in, out]` matrix. -/
def pairDense {n n' : ℕ} (x : Fin n → EReal) (A : Fin n → Fin n' → EReal) (β : Fin n' → EReal) : Fin n' → EReal :=
  fun c => Ideal.tanh ((∑ k : Fin n, x k * A k c) + β c)

/-- A sum over `K + K` positions is the sum over the first `K` plus the sum over the last `K`. -/
theorem sum_halves {n K : ℕ} (hn : n = K + K) (f : Fin n → EReal) :
    ∑ k, f k = (∑ k : Fin K, f ⟨k.val, by omega⟩) + ∑ k : Fin K, f ⟨K + k.val, by omega⟩ := by
  subst hn
  rw [Fin.sum_univ_add]; rfl

/-- Against a column that is `w` on the first half and zero on the second, only the first half of the row counts. -/
theorem sum_mul_left {n K : ℕ} (hn : n = K + K) (a A : Fin n → EReal) (w : Fin K → EReal)
    (hl : ∀ k : Fin K, A ⟨k.val, by omega⟩ = w k) (hr : ∀ k : Fin K, A ⟨K + k.val, by omega⟩ = 0) :
    ∑ k, a k * A k = ∑ k : Fin K, a ⟨k.val, by omega⟩ * w k := by
  rw [sum_halves hn]
  simp only [hl, hr, mul_zero, Finset.sum_const_zero, add_zero]

/-- Against a column that is zero on the first half and `w` on the second, only the second half counts. -/
theorem sum_mul_right {n K : ℕ} (hn : n = K + K) (a A : Fin n → EReal) (w : Fin K → EReal)
    (hl : ∀ k : Fin K, A ⟨k.val, by omega⟩ = 0) (hr : ∀ k : Fin K, A ⟨K + k.val, by omega⟩ = w k) :
    ∑ k, a k * A k = ∑ k : Fin K, a ⟨K + k.val, by omega⟩ * w k := by
  rw [sum_halves hn]
  simp only [hl, hr, mul_zero, Finset.sum_const_zero, zero_add]

/-- `A` is `diag (Wᵀ, Wᵀ)` and `β` is `(b, b)`. -/
structure BlockDiag {n n' K N : ℕ} (hn : n = K + K) (hn' : n' = N + N) (A : Fin n → Fin n' → EReal) (β : Fin n' → EReal)
    (W : Fin N → Fin K → EReal) (b : Fin N → EReal) : Prop where
  ll : ∀ (k : Fin K) (c : Fin N), A ⟨k.val, by omega⟩ ⟨c.val, by omega⟩ = W c k
  rl : ∀ (k : Fin K) (c : Fin N), A ⟨K + k.val, by omega⟩ ⟨c.val, by omega⟩ = 0
  lr : ∀ (k : Fin K) (c : Fin N), A ⟨k.val, by omega⟩ ⟨N + c.val, by omega⟩ = 0
  rr : ∀ (k : Fin K) (c : Fin N), A ⟨K + k.val, by omega⟩ ⟨N + c.val, by omega⟩ = W c k
  bl : ∀ c : Fin N, β ⟨c.val, by omega⟩ = b c
  br : ∀ c : Fin N, β ⟨N + c.val, by omega⟩ = b c

/-- The left half of the paired layer is the layer of the left row. -/
theorem pairDense_left {n n' K N : ℕ} {hn : n = K + K} {hn' : n' = N + N} {A : Fin n → Fin n' → EReal} {β : Fin n' → EReal}
    {W : Fin N → Fin K → EReal} {b : Fin N → EReal} (h : BlockDiag hn hn' A β W b) (x : Fin n → EReal) (c : Fin N) :
    pairDense x A β ⟨c.val, by omega⟩ = dense (fun k : Fin K => x ⟨k.val, by omega⟩) W b c := by
  unfold pairDense dense
  rw [sum_mul_left hn x (fun k => A k ⟨c.val, by omega⟩) (fun k => W c k) (fun k => h.ll k c) (fun k => h.rl k c), h.bl]

/-- The right half of the paired layer is the layer of the right row. -/
theorem pairDense_right {n n' K N : ℕ} {hn : n = K + K} {hn' : n' = N + N} {A : Fin n → Fin n' → EReal} {β : Fin n' → EReal}
    {W : Fin N → Fin K → EReal} {b : Fin N → EReal} (h : BlockDiag hn hn' A β W b) (x : Fin n → EReal) (c : Fin N) :
    pairDense x A β ⟨N + c.val, by omega⟩ = dense (fun k : Fin K => x ⟨K + k.val, by omega⟩) W b c := by
  unfold pairDense dense
  rw [sum_mul_right hn x (fun k => A k ⟨N + c.val, by omega⟩) (fun k => W c k) (fun k => h.lr k c) (fun k => h.rr k c), h.br]

end Cert.Mlp

end
-- ==== Proof.Mlp.lean ====
/-
  The network both programs compute, on plain rows of extended reals: three dense layers
  `c ↦ tanh (∑ k, x k · W c k + b c)` and the head `logistic (∑ k, h k · w k + b)`; and the pairing law for the whole
  network: two rows side by side through the three block-diagonal layers, then the head on one half, is the network
  on that row.
-/
import proofs.«115613_j996432412877_2_alg».proof.Proof.LibBlockDiag

noncomputable section

namespace Cert.Mlp

open Idealize.ShloMosaic

/-- The scalar head: a dot product, a bias, the logistic function. -/
def head {K : ℕ} (h : Fin K → EReal) (w : Fin K → EReal) (b : EReal) : EReal :=
  Ideal.logistic ((∑ k : Fin K, h k * w k) + b)

/-- Three dense layers and the head, on one row of 64 features. -/
def mlp (W1 : Fin 128 → Fin 64 → EReal) (b1 : Fin 128 → EReal) (W2 : Fin 128 → Fin 128 → EReal) (b2 : Fin 128 → EReal)
    (W3 : Fin 128 → Fin 128 → EReal) (b3 : Fin 128 → EReal) (w4 : Fin 128 → EReal) (b4 : EReal) (x : Fin 64 → EReal) : EReal :=
  head (dense (dense (dense x W1 b1) W2 b2) W3 b3) w4 b4

section Paired

variable {A1 : Fin 128 → Fin 256 → EReal} {β1 : Fin 256 → EReal} {W1 : Fin 128 → Fin 64 → EReal} {b1 : Fin 128 → EReal}
  {A2 A3 : Fin 256 → Fin 256 → EReal} {β2 β3 : Fin 256 → EReal} {W2 W3 : Fin 128 → Fin 128 → EReal} {b2 b3 : Fin 128 → EReal}

/-- Two rows through the three paired layers, then the head on the LEFT half: the network on the left row. -/
theorem paired_left (h1 : BlockDiag (K := 64) (N := 128) rfl rfl A1 β1 W1 b1) (h2 : BlockDiag (K := 128) (N := 128) rfl rfl A2 β2 W2 b2)
    (h3 : BlockDiag (K := 128) (N := 128) rfl rfl A3 β3 W3 b3) (w4 : Fin 128 → EReal) (b4 : EReal) (x : Fin 128 → EReal) :
    head (fun k : Fin 128 => pairDense (pairDense (pairDense x A1 β1) A2 β2) A3 β3 ⟨k.val, by omega⟩) w4 b4
      = mlp W1 b1 W2 b2 W3 b3 w4 b4 (fun k : Fin 64 => x ⟨k.val, by omega⟩) := by
  unfold mlp
  congr 1
  funext k
  rw [pairDense_left h3]; congr 1; funext k
  rw [pairDense_left h2]; congr 1; funext k
  rw [pairDense_left h1]

/-- The head on the RIGHT half: the network on the right row. -/
theorem paired_right (h1 : BlockDiag (K := 64) (N := 128) rfl rfl A1 β1 W1 b1) (h2 : BlockDiag (K := 128) (N := 128) rfl rfl A2 β2 W2 b2)
    (h3 : BlockDiag (K := 128) (N := 128) rfl rfl A3 β3 W3 b3) (w4 : Fin 128 → EReal) (b4 : EReal) (x : Fin 128 → EReal) :
    head (fun k : Fin 128 => pairDense (pairDense (pairDense x A1 β1) A2 β2) A3 β3 ⟨128 + k.val, by omega⟩) w4 b4
      = mlp W1 b1 W2 b2 W3 b3 w4 b4 (fun k : Fin 64 => x ⟨64 + k.val, by omega⟩) := by
  unfold mlp
  congr 1
  funext k
  rw [pairDense_right h3]; congr 1; funext k
  rw [pairDense_right h2]; congr 1; funext k
  rw [pairDense_right h1]

end Paired

end Cert.Mlp

end
-- ==== Proof.Body.lean ====
/-
  The kernel's body at one grid point, read index by index.

  The body loads a block of 8000 paired rows `x0` (each 128 wide: two edges' 64 features side by side), three
  weight matrices `x1, x3, x5` stored `[in, out]` with their bias rows `x2, x4, x6`, the head's weight row `x7`
  and its bias `x8`.  Row `r` of the block goes through three layers `tanh (row · A + β)` — each matrix product
  is, entry by entry, the sum over the contracted index of the products — and the head is taken twice: on the first
  128 entries of the last layer's row for output column 0, on the last 128 for output column 1.  The two columns
  are written by two stores that tile the [8000, 2] block.
-/
import proofs.«115613_j996432412877_2_alg».proof.Proof.Gen.KernelIdeal.Frame
import proofs.«115613_j996432412877_2_alg».proof.Proof.Mlp
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Cert.Mlp

/-! ## The two matrix products and the lane sum at an index -/

theorem matmul_128_lhs0 (i : S8000x256.Idx) (q : dot_S8000x128_S128x256_S8000x256_1_0_0_1_n_n.contr.Idx) : (dot_S8000x128_S128x256_S8000x256_1_0_0_1_n_n.lhsIdx i q 0).val = (i 0).val := by
  unfold DotDims.lhsIdx
  rw [dif_neg (show ¬(0 : Fin S8000x128.rank) ∈ dot_S8000x128_S128x256_S8000x256_1_0_0_1_n_n.lhsBatch by decide), dif_pos (show (0 : Fin S8000x128.rank) ∈ dot_S8000x128_S128x256_S8000x256_1_0_0_1_n_n.lhsNonContracting by decide)]
  rfl
theorem matmul_128_lhs1 (i : S8000x256.Idx) (q : dot_S8000x128_S128x256_S8000x256_1_0_0_1_n_n.contr.Idx) : (dot_S8000x128_S128x256_S8000x256_1_0_0_1_n_n.lhsIdx i q 1).val = (q ⟨0, by decide⟩).val :=
  dot_S8000x128_S128x256_S8000x256_1_0_0_1_n_n.lhsIdx_val_of_single rfl i q
theorem matmul_128_rhs0 (i : S8000x256.Idx) (q : dot_S8000x128_S128x256_S8000x256_1_0_0_1_n_n.contr.Idx) : (dot_S8000x128_S128x256_S8000x256_1_0_0_1_n_n.rhsIdx i q 0).val = (q ⟨0, by decide⟩).val :=
  dot_S8000x128_S128x256_S8000x256_1_0_0_1_n_n.rhsIdx_val_of_single rfl i q
theorem matmul_128_rhs1 (i : S8000x256.Idx) (q : dot_S8000x128_S128x256_S8000x256_1_0_0_1_n_n.contr.Idx) : (dot_S8000x128_S128x256_S8000x256_1_0_0_1_n_n.rhsIdx i q 1).val = (i 1).val := by
  unfold DotDims.rhsIdx
  rw [dif_neg (show ¬(1 : Fin S128x256.rank) ∈ dot_S8000x128_S128x256_S8000x256_1_0_0_1_n_n.rhsBatch by decide), dif_pos (show (1 : Fin S128x256.rank) ∈ dot_S8000x128_S128x256_S8000x256_1_0_0_1_n_n.rhsNonContracting by decide)]
  rfl

/-- The [8000,128] × [128,256] product into the zero accumulator: entry `(r, c)` is `∑ k, a (r, k) · b (k, c)`. -/
theorem matmul_128 (a : FVec Ideal S8000x128 .bf16) (b : FVec Ideal S128x256 .bf16) (r : Fin 8000) (c : Fin 256) :
    matmul dot_S8000x128_S128x256_S8000x256_1_0_0_1_n_n none a b (constant S8000x256 .f32 0x00000000#32) (ix2 r c)
      = ∑ k : Fin 128, a (ix2 r k) * b (ix2 k c) := by
  refine (Ideal.matmul_constant_zero_apply dot_S8000x128_S128x256_S8000x256_1_0_0_1_n_n none a b (ix2 r c)).trans ?_
  rw [← Equiv.sum_comp (contrEquiv1 dot_S8000x128_S128x256_S8000x256_1_0_0_1_n_n 128 rfl rfl).symm]
  refine Finset.sum_congr rfl fun k _ => ?_
  have hk := contrEquiv1_symm_val dot_S8000x128_S128x256_S8000x256_1_0_0_1_n_n 128 rfl rfl k
  have el : dot_S8000x128_S128x256_S8000x256_1_0_0_1_n_n.lhsIdx (ix2 r c) ((contrEquiv1 dot_S8000x128_S128x256_S8000x256_1_0_0_1_n_n 128 rfl rfl).symm k) = ix2 r k :=
    funext fun ax => Fin.ext (by
      match ax with
      | ⟨0, _⟩ => exact matmul_128_lhs0 _ _
      | ⟨1, _⟩ => exact (matmul_128_lhs1 _ _).trans hk)
  have er : dot_S8000x128_S128x256_S8000x256_1_0_0_1_n_n.rhsIdx (ix2 r c) ((contrEquiv1 dot_S8000x128_S128x256_S8000x256_1_0_0_1_n_n 128 rfl rfl).symm k) = ix2 k c :=
    funext fun ax => Fin.ext (by
      match ax with
      | ⟨0, _⟩ => exact (matmul_128_rhs0 _ _).trans hk
      | ⟨1, _⟩ => exact matmul_128_rhs1 _ _)
  rw [el, er]

theorem matmul_256_lhs0 (i : S8000x256.Idx) (q : dot_S8000x256_S256x256_S8000x256_1_0_0_1_n_n.contr.Idx) : (dot_S8000x256_S256x256_S8000x256_1_0_0_1_n_n.lhsIdx i q 0).val = (i 0).val := by
  unfold DotDims.lhsIdx
  rw [dif_neg (show ¬(0 : Fin S8000x256.rank) ∈ dot_S8000x256_S256x256_S8000x256_1_0_0_1_n_n.lhsBatch by decide), dif_pos (show (0 : Fin S8000x256.rank) ∈ dot_S8000x256_S256x256_S8000x256_1_0_0_1_n_n.lhsNonContracting by decide)]
  rfl
theorem matmul_256_lhs1 (i : S8000x256.Idx) (q : dot_S8000x256_S256x256_S8000x256_1_0_0_1_n_n.contr.Idx) : (dot_S8000x256_S256x256_S8000x256_1_0_0_1_n_n.lhsIdx i q 1).val = (q ⟨0, by decide⟩).val :=
  dot_S8000x256_S256x256_S8000x256_1_0_0_1_n_n.lhsIdx_val_of_single rfl i q
theorem matmul_256_rhs0 (i : S8000x256.Idx) (q : dot_S8000x256_S256x256_S8000x256_1_0_0_1_n_n.contr.Idx) : (dot_S8000x256_S256x256_S8000x256_1_0_0_1_n_n.rhsIdx i q 0).val = (q ⟨0, by decide⟩).val :=
  dot_S8000x256_S256x256_S8000x256_1_0_0_1_n_n.rhsIdx_val_of_single rfl i q
theorem matmul_256_rhs1 (i : S8000x256.Idx) (q : dot_S8000x256_S256x256_S8000x256_1_0_0_1_n_n.contr.Idx) : (dot_S8000x256_S256x256_S8000x256_1_0_0_1_n_n.rhsIdx i q 1).val = (i 1).val := by
  unfold DotDims.rhsIdx
  rw [dif_neg (show ¬(1 : Fin S256x256.rank) ∈ dot_S8000x256_S256x256_S8000x256_1_0_0_1_n_n.rhsBatch by decide), dif_pos (show (1 : Fin S256x256.rank) ∈ dot_S8000x256_S256x256_S8000x256_1_0_0_1_n_n.rhsNonContracting by decide)]
  rfl

/-- The [8000,256] × [256,256] product into the zero accumulator: entry `(r, c)` is `∑ k, a (r, k) · b (k, c)`. -/
theorem matmul_256 (a : FVec Ideal S8000x256 .bf16) (b : FVec Ideal S256x256 .bf16) (r : Fin 8000) (c : Fin 256) :
    matmul dot_S8000x256_S256x256_S8000x256_1_0_0_1_n_n none a b (constant S8000x256 .f32 0x00000000#32) (ix2 r c)
      = ∑ k : Fin 256, a (ix2 r k) * b (ix2 k c) := by
  refine (Ideal.matmul_constant_zero_apply dot_S8000x256_S256x256_S8000x256_1_0_0_1_n_n none a b (ix2 r c)).trans ?_
  rw [← Equiv.sum_comp (contrEquiv1 dot_S8000x256_S256x256_S8000x256_1_0_0_1_n_n 256 rfl rfl).symm]
  refine Finset.sum_congr rfl fun k _ => ?_
  have hk := contrEquiv1_symm_val dot_S8000x256_S256x256_S8000x256_1_0_0_1_n_n 256 rfl rfl k
  have el : dot_S8000x256_S256x256_S8000x256_1_0_0_1_n_n.lhsIdx (ix2 r c) ((contrEquiv1 dot_S8000x256_S256x256_S8000x256_1_0_0_1_n_n 256 rfl rfl).symm k) = ix2 r k :=
    funext fun ax => Fin.ext (by
      match ax with
      | ⟨0, _⟩ => exact matmul_256_lhs0 _ _
      | ⟨1, _⟩ => exact (matmul_256_lhs1 _ _).trans hk)
  have er : dot_S8000x256_S256x256_S8000x256_1_0_0_1_n_n.rhsIdx (ix2 r c) ((contrEquiv1 dot_S8000x256_S256x256_S8000x256_1_0_0_1_n_n 256 rfl rfl).symm k) = ix2 k c :=
    funext fun ax => Fin.ext (by
      match ax with
      | ⟨0, _⟩ => exact (matmul_256_rhs0 _ _).trans hk
      | ⟨1, _⟩ => exact matmul_256_rhs1 _ _)
  rw [el, er]

/-- The sum along the lanes of an [8000,128] vector, from zero: entry `r` is `∑ k, v (r, k)`. -/
theorem lane_sum (v : FVec Ideal S8000x128 .f32) (r : Fin 8000) :
    multiReduction .add [1] S8000 v 0x00000000#32 reduces_S8000x128_S8000 (.inl rfl) rfl (ix1 r) = ∑ k : Fin 128, v (ix2 r k) := by
  refine (Ideal.multiReduction_add_single v 0x00000000#32 reduces_S8000x128_S8000 (.inl rfl) rfl (ix1 r)).trans ?_
  refine Finset.sum_congr rfl fun k _ => congrArg v (funext fun ax => Fin.ext ?_)
  rw [Shape.Reduces.lift_val]
  unfold Shape.Reduces.liftVal
  match ax with
  | ⟨0, _⟩ => rfl
  | ⟨1, _⟩ => rfl

/-! ## One layer of the body at an index -/

/-- The first layer: `tanh (a · w + b)` at `(r, c)` is the paired layer of row `r` of `a`. -/
theorem layer_128 (a : FVec Ideal S8000x128 .bf16) (w : FVec Ideal S128x256 .bf16) (b : FVec Ideal S1x256 .f32) (r : Fin 8000) (c : Fin 256) :
    tanh (addf (matmul dot_S8000x128_S128x256_S8000x256_1_0_0_1_n_n none a (shapeCast S128x256 w shapeCasts_S128x256_S128x256) (constant S8000x256 .f32 0x00000000#32))
        (broadcastTo S8000x256 (shapeCast S1x256 b shapeCasts_S1x256_S1x256) broadcasts_S1x256_S8000x256)) (ix2 r c)
      = pairDense (fun k : Fin 128 => (a (ix2 r k) : EReal)) (fun (k : Fin 128) (c : Fin 256) => (w (ix2 k c) : EReal)) (fun c : Fin 256 => (b (ix2 (0 : Fin 1) c) : EReal)) c := by
  show Ideal.tanh (matmul dot_S8000x128_S128x256_S8000x256_1_0_0_1_n_n none a (shapeCast S128x256 w shapeCasts_S128x256_S128x256) (constant S8000x256 .f32 0x00000000#32) (ix2 r c)
        + broadcastTo S8000x256 (shapeCast S1x256 b shapeCasts_S1x256_S1x256) broadcasts_S1x256_S8000x256 (ix2 r c)) = _
  rw [shapeCast_self, shapeCast_self, matmul_128, broadcastTo_1b_ab_apply]
  rfl

/-- The second and third layers: the same over 256 inputs. -/
theorem layer_256 (a : FVec Ideal S8000x256 .bf16) (w : FVec Ideal S256x256 .bf16) (b : FVec Ideal S1x256 .f32) (r : Fin 8000) (c : Fin 256) :
    tanh (addf (matmul dot_S8000x256_S256x256_S8000x256_1_0_0_1_n_n none a (shapeCast S256x256 w shapeCasts_S256x256_S256x256) (constant S8000x256 .f32 0x00000000#32))
        (broadcastTo S8000x256 (shapeCast S1x256 b shapeCasts_S1x256_S1x256) broadcasts_S1x256_S8000x256)) (ix2 r c)
      = pairDense (fun k : Fin 256 => (a (ix2 r k) : EReal)) (fun (k : Fin 256) (c : Fin 256) => (w (ix2 k c) : EReal)) (fun c : Fin 256 => (b (ix2 (0 : Fin 1) c) : EReal)) c := by
  show Ideal.tanh (matmul dot_S8000x256_S256x256_S8000x256_1_0_0_1_n_n none a (shapeCast S256x256 w shapeCasts_S256x256_S256x256) (constant S8000x256 .f32 0x00000000#32) (ix2 r c)
        + broadcastTo S8000x256 (shapeCast S1x256 b shapeCasts_S1x256_S1x256) broadcasts_S1x256_S8000x256 (ix2 r c)) = _
  rw [shapeCast_self, shapeCast_self, matmul_256, broadcastTo_1b_ab_apply]
  rfl

/-- Row `r` of the block after the three layers, as a row of 256 numbers. -/
def row3 (x0 : Vec Ideal S8000x128 .f32) (x1 : Vec Ideal S128x256 .bf16) (x2 : Vec Ideal S1x256 .f32) (x3 : Vec Ideal S256x256 .bf16)
    (x4 : Vec Ideal S1x256 .f32) (x5 : Vec Ideal S256x256 .bf16) (x6 : Vec Ideal S1x256 .f32) (r : Fin 8000) : Fin 256 → EReal :=
  pairDense (pairDense (pairDense (fun k : Fin 128 => (x0 (ix2 r k) : EReal)) (fun (k : Fin 128) (c : Fin 256) => (x1 (ix2 k c) : EReal)) (fun c : Fin 256 => (x2 (ix2 (0 : Fin 1) c) : EReal)))
      (fun (k : Fin 256) (c : Fin 256) => (x3 (ix2 k c) : EReal)) (fun c : Fin 256 => (x4 (ix2 (0 : Fin 1) c) : EReal)))
    (fun (k : Fin 256) (c : Fin 256) => (x5 (ix2 k c) : EReal)) (fun c : Fin 256 => (x6 (ix2 (0 : Fin 1) c) : EReal))

/-- The body's value after its third `tanh`, at `(r, c)`: entry `c` of row `r` through the three layers. -/
theorem pay3_apply (x0 : Vec Ideal S8000x128 .f32) (x1 : Vec Ideal S128x256 .bf16) (x2 : Vec Ideal S1x256 .f32) (x3 : Vec Ideal S256x256 .bf16)
    (x4 : Vec Ideal S1x256 .f32) (x5 : Vec Ideal S256x256 .bf16) (x6 : Vec Ideal S1x256 .f32) (r : Fin 8000) (c : Fin 256) :
    k0_pay3 x0 x1 x2 x3 x4 x5 x6 (ix2 r c) = row3 x0 x1 x2 x3 x4 x5 x6 r c := by
  unfold k0_pay3 row3
  try dsimp only
  refine (layer_256 _ x5 x6 r c).trans ?_
  refine congrArg (fun f => pairDense f _ _ c) (funext fun k => ?_)
  refine (layer_256 _ x3 x4 r k).trans ?_
  refine congrArg (fun f => pairDense f _ _ k) (funext fun k' => ?_)
  refine (layer_128 _ x1 x2 r k').trans ?_
  rw [shapeCast_self]
  rfl

/-! ## The two heads -/

/-- A column [8000] read as [8000, 1]. -/
theorem col_cast (v : FVec Ideal S8000 .f32) (r : Fin 8000) :
    shapeCast S8000x1 v shapeCasts_S8000_S8000x1 (ix2 r (0 : Fin 1)) = v (ix1 r) := by
  refine shapeCast_apply v shapeCasts_S8000_S8000x1 (ix2 r (0 : Fin 1)) (ix1 r) ?_
  rw [Shape.rowMajor_val_one, Shape.rowMajor_val_two]
  show r.val = r.val * 1 + 0
  omega

/-- The [1,1] bias broadcast down the [8000,1] column. -/
theorem bias_bcast (v : FVec Ideal S1x1 .f32) (r : Fin 8000) :
    broadcastTo S8000x1 v broadcasts_S1x1_S8000x1 (ix2 r (0 : Fin 1)) = v (ix2 (0 : Fin 1) (0 : Fin 1)) := by
  refine broadcastTo_apply v broadcasts_S1x1_S8000x1 (ix2 r (0 : Fin 1)) (ix2 (0 : Fin 1) (0 : Fin 1)) fun ax => ?_
  match ax with
  | ⟨0, _⟩ => rfl
  | ⟨1, _⟩ => rfl

/-- The store to column 0: the head on the first 128 entries of the row. -/
theorem pay1_apply (x0 : Vec Ideal S8000x128 .f32) (x1 : Vec Ideal S128x256 .bf16) (x2 : Vec Ideal S1x256 .f32) (x3 : Vec Ideal S256x256 .bf16)
    (x4 : Vec Ideal S1x256 .f32) (x5 : Vec Ideal S256x256 .bf16) (x6 : Vec Ideal S1x256 .f32) (x7 : Vec Ideal S1x128 .f32) (x8 : Vec Ideal S1x1 .f32) (r : Fin 8000) :
    k0_pay1 (k0_pay4 x8) (k0_pay6 x0 x1 x2 x3 x4 x5 x6 x7) (ix2 r (0 : Fin 1))
      = head (fun k : Fin 128 => row3 x0 x1 x2 x3 x4 x5 x6 r ⟨k.val, by omega⟩) (fun k : Fin 128 => (x7 (ix2 (0 : Fin 1) k) : EReal)) (x8 (ix2 (0 : Fin 1) (0 : Fin 1)) : EReal) := by
  unfold k0_pay1 k0_pay4 k0_pay6 head
  try dsimp only
  show Ideal.logistic (shapeCast S8000x1 _ shapeCasts_S8000_S8000x1 (ix2 r (0 : Fin 1)) + broadcastTo S8000x1 _ broadcasts_S1x1_S8000x1 (ix2 r (0 : Fin 1))) = _
  rw [col_cast, bias_bcast, shapeCast_self, lane_sum]
  refine congrArg (fun s => Ideal.logistic (s + _)) (Finset.sum_congr rfl fun k _ => ?_)
  show extractStridedSlice S8000x128 ![0, 0] (k0_pay3 x0 x1 x2 x3 x4 x5 x6) slices_S8000x256_o0_0_S8000x128 (ix2 r k) * broadcastTo S8000x128 x7 broadcasts_S1x128_S8000x128 (ix2 r k) = _
  rw [slice2_axis1_apply 0 (k0_pay3 x0 x1 x2 x3 x4 x5 x6) slices_S8000x256_o0_0_S8000x128 r k ⟨k.val, by omega⟩ (by simp), broadcastTo_1b_ab_apply, pay3_apply]

/-- The store to column 1: the head on the last 128 entries of the row. -/
theorem pay2_apply (x0 : Vec Ideal S8000x128 .f32) (x1 : Vec Ideal S128x256 .bf16) (x2 : Vec Ideal S1x256 .f32) (x3 : Vec Ideal S256x256 .bf16)
    (x4 : Vec Ideal S1x256 .f32) (x5 : Vec Ideal S256x256 .bf16) (x6 : Vec Ideal S1x256 .f32) (x7 : Vec Ideal S1x128 .f32) (x8 : Vec Ideal S1x1 .f32) (r : Fin 8000) :
    k0_pay2 x7 (k0_pay4 x8) (k0_pay5 x0 x1 x2 x3 x4 x5 x6) (ix2 r (0 : Fin 1))
      = head (fun k : Fin 128 => row3 x0 x1 x2 x3 x4 x5 x6 r ⟨128 + k.val, by omega⟩) (fun k : Fin 128 => (x7 (ix2 (0 : Fin 1) k) : EReal)) (x8 (ix2 (0 : Fin 1) (0 : Fin 1)) : EReal) := by
  unfold k0_pay2 k0_pay4 k0_pay5 head
  try dsimp only
  show Ideal.logistic (shapeCast S8000x1 _ shapeCasts_S8000_S8000x1 (ix2 r (0 : Fin 1)) + broadcastTo S8000x1 _ broadcasts_S1x1_S8000x1 (ix2 r (0 : Fin 1))) = _
  rw [col_cast, bias_bcast, shapeCast_self, lane_sum]
  refine congrArg (fun s => Ideal.logistic (s + _)) (Finset.sum_congr rfl fun k _ => ?_)
  show extractStridedSlice S8000x128 ![0, 128] (k0_pay3 x0 x1 x2 x3 x4 x5 x6) slices_S8000x256_o0_128_S8000x128 (ix2 r k) * broadcastTo S8000x128 x7 broadcasts_S1x128_S8000x128 (ix2 r k) = _
  rw [slice2_axis1_apply 128 (k0_pay3 x0 x1 x2 x3 x4 x5 x6) slices_S8000x256_o0_128_S8000x128 r k ⟨128 + k.val, by omega⟩ rfl, broadcastTo_1b_ab_apply, pay3_apply]

end Cert.KernelIdeal.Body

end
-- ==== Proof.LibCatPair.lean ====
/-
  A concatenation of two pieces read at an index, for vectors and matrices indexed by literal coordinates: an index
  whose coordinate on the joined axis falls in the first piece reads the first piece there; one past it reads the
  second piece, the first extent less.  The other coordinate is unchanged.
-/
import Idealize.ShloMosaic.Lib.ValueIdx
import Idealize.ShloMosaic.Lib.Pipeline.Value

noncomputable section

namespace Cert.LibCatPair

open Idealize.ShloMosaic Idealize.ShloMosaic.ValueIdx

/-! ## Two pieces side by side, read at an index -/

section Cat
variable {α : Type}

/-- Two matrices side by side: a column in the first piece reads the first piece. -/
theorem cat_cols_left {a b1 b2 n : ℕ} (x : (⟨2, ![a, b1]⟩ : Shape).Idx → α) (y : (⟨2, ![a, b2]⟩ : Shape).Idx → α)
    (h : Shape.Concatenates [⟨2, ![a, b1]⟩, ⟨2, ![a, b2]⟩] ⟨2, ![a, n]⟩ 1) (p : Fin a) (q : Fin b1) (q' : Fin n) (hq : q'.val = q.val) :
    concatenate ⟨2, ![a, n]⟩ 1 [⟨⟨2, ![a, b1]⟩, x⟩, ⟨⟨2, ![a, b2]⟩, y⟩] h (ix2 p q') = x (ix2 p q) :=
  concatenate_pair_apply_left 1 x y h (ix2 p q') rfl (ix2 p q) (fun b => match b with | ⟨0, _⟩ => rfl | ⟨1, _⟩ => hq.symm)

/-- A column past the first piece reads the second piece, the first extent less. -/
theorem cat_cols_right {a b1 b2 n : ℕ} (x : (⟨2, ![a, b1]⟩ : Shape).Idx → α) (y : (⟨2, ![a, b2]⟩ : Shape).Idx → α)
    (h : Shape.Concatenates [⟨2, ![a, b1]⟩, ⟨2, ![a, b2]⟩] ⟨2, ![a, n]⟩ 1) (p : Fin a) (q : Fin b2) (q' : Fin n) (hq : q'.val = b1 + q.val) :
    concatenate ⟨2, ![a, n]⟩ 1 [⟨⟨2, ![a, b1]⟩, x⟩, ⟨⟨2, ![a, b2]⟩, y⟩] h (ix2 p q') = y (ix2 p q) :=
  concatenate_pair_apply_right 1 x y h (ix2 p q') rfl rfl (ix2 p q)
    (fun b hb => match b, hb with | ⟨0, _⟩, _ => rfl | ⟨1, _⟩, hb => absurd rfl hb)
    (by show q.val + b1 = q'.val; omega)

/-- Two matrices one above the other: a row in the first piece reads the first piece. -/
theorem cat_rows_left {a1 a2 b n : ℕ} (x : (⟨2, ![a1, b]⟩ : Shape).Idx → α) (y : (⟨2, ![a2, b]⟩ : Shape).Idx → α)
    (h : Shape.Concatenates [⟨2, ![a1, b]⟩, ⟨2, ![a2, b]⟩] ⟨2, ![n, b]⟩ 0) (p : Fin a1) (q : Fin b) (p' : Fin n) (hp : p'.val = p.val) :
    concatenate ⟨2, ![n, b]⟩ 0 [⟨⟨2, ![a1, b]⟩, x⟩, ⟨⟨2, ![a2, b]⟩, y⟩] h (ix2 p' q) = x (ix2 p q) :=
  concatenate_pair_apply_left 0 x y h (ix2 p' q) rfl (ix2 p q) (fun b => match b with | ⟨0, _⟩ => hp.symm | ⟨1, _⟩ => rfl)

/-- A row past the first piece reads the second piece, the first extent less. -/
theorem cat_rows_right {a1 a2 b n : ℕ} (x : (⟨2, ![a1, b]⟩ : Shape).Idx → α) (y : (⟨2, ![a2, b]⟩ : Shape).Idx → α)
    (h : Shape.Concatenates [⟨2, ![a1, b]⟩, ⟨2, ![a2, b]⟩] ⟨2, ![n, b]⟩ 0) (p : Fin a2) (q : Fin b) (p' : Fin n) (hp : p'.val = a1 + p.val) :
    concatenate ⟨2, ![n, b]⟩ 0 [⟨⟨2, ![a1, b]⟩, x⟩, ⟨⟨2, ![a2, b]⟩, y⟩] h (ix2 p' q) = y (ix2 p q) :=
  concatenate_pair_apply_right 0 x y h (ix2 p' q) rfl rfl (ix2 p q)
    (fun b hb => match b, hb with | ⟨0, _⟩, hb => absurd rfl hb | ⟨1, _⟩, _ => rfl)
    (by show p.val + a1 = p'.val; omega)

/-- Two vectors end to end. -/
theorem cat_vec_left {a1 a2 n : ℕ} (x : (⟨1, ![a1]⟩ : Shape).Idx → α) (y : (⟨1, ![a2]⟩ : Shape).Idx → α)
    (h : Shape.Concatenates [⟨1, ![a1]⟩, ⟨1, ![a2]⟩] ⟨1, ![n]⟩ 0) (p : Fin a1) (p' : Fin n) (hp : p'.val = p.val) :
    concatenate ⟨1, ![n]⟩ 0 [⟨⟨1, ![a1]⟩, x⟩, ⟨⟨1, ![a2]⟩, y⟩] h (ix1 p') = x (ix1 p) :=
  concatenate_pair_apply_left 0 x y h (ix1 p') rfl (ix1 p) (fun b => match b with | ⟨0, _⟩ => hp.symm)

theorem cat_vec_right {a1 a2 n : ℕ} (x : (⟨1, ![a1]⟩ : Shape).Idx → α) (y : (⟨1, ![a2]⟩ : Shape).Idx → α)
    (h : Shape.Concatenates [⟨1, ![a1]⟩, ⟨1, ![a2]⟩] ⟨1, ![n]⟩ 0) (p : Fin a2) (p' : Fin n) (hp : p'.val = a1 + p.val) :
    concatenate ⟨1, ![n]⟩ 0 [⟨⟨1, ![a1]⟩, x⟩, ⟨⟨1, ![a2]⟩, y⟩] h (ix1 p') = y (ix1 p) :=
  concatenate_pair_apply_right 0 x y h (ix1 p') rfl rfl (ix1 p)
    (fun b hb => match b, hb with | ⟨0, _⟩, hb => absurd rfl hb)
    (by show p.val + a1 = p'.val; omega)

end Cat

end Cert.LibCatPair

end
-- ==== Proof.Entry.lean ====
/-
  The arrays the region is launched on, as functions of the program's arguments, and read at an index.

  The host lines before the region build, from each weight `W` stored `[out, in]`, the block-diagonal matrix
  `[[Wᵀ, 0], [0, Wᵀ]]` (two concatenations along the columns, one along the rows), from each bias `b` the row `(b, b)`,
  and from the edge features `E : [800000, 64]` the paired matrix `[400000, 128]` whose row `p` is row `2p` of `E`
  followed by row `2p + 1` (a reshape: same row-major order).  Read at an index these are exactly the hypotheses of
  the pairing law: the matrix is `W c k` on the two diagonal blocks and zero off them.
-/
import proofs.«115613_j996432412877_2_alg».proof.Proof.Gen.KernelIdeal.Frame
import proofs.«115613_j996432412877_2_alg».proof.Proof.Mlp
import proofs.«115613_j996432412877_2_alg».proof.Proof.LibCatPair
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Entry

open Cert.KernelIdeal Cert.KernelIdeal.Gen Idealize.ShloMosaic Idealize.ShloMosaic.ValueIdx Idealize.ShloMosaic.TcCoe Idealize.SL.Sem
  Idealize.ShloMosaic.StableHlo Cert.Mlp Cert.LibCatPair

/-! ## The block-diagonal weights and the doubled biases -/

/-- The zero matrix the host broadcasts from its scalar constant. -/
def zeros (S : Shape) (h : S_.BroadcastsInDim S (![] : Fin 0 → Fin S.rank)) : FVec Ideal S .f32 :=
  broadcastInDim S ![] h (constant (F := Ideal) S_ .f32 0x00000000#32)

theorem zeros_apply (S : Shape) (h : S_.BroadcastsInDim S (![] : Fin 0 → Fin S.rank)) (i : S.Idx) : zeros S h i = 0 := by
  unfold zeros
  rw [broadcastInDim_apply _ h _ i ix0 (fun a => a.elim0)]
  exact Ideal.ofBits_zero_f32

/-- `[[Wᵀ, 0], [0, Wᵀ]]` of the first layer's weight `W : [128, 64]`, as the host builds it. -/
def blk1 (W : FVec Ideal S128x64 .f32) : FVec Ideal S128x256 .bf16 :=
  truncf .bf16 (concatenate S128x256 0
    [⟨S64x256, concatenate S64x256 1 [⟨S64x128, transpose S64x128 [1, 0] W transposes_S128x64_S64x128_1_0⟩, ⟨S64x128, zeros S64x128 bcast_S_S64x128⟩] concatenates_S64x128_S64x128_S64x256_d1⟩,
     ⟨S64x256, concatenate S64x256 1 [⟨S64x128, zeros S64x128 bcast_S_S64x128⟩, ⟨S64x128, transpose S64x128 [1, 0] W transposes_S128x64_S64x128_1_0⟩] concatenates_S64x128_S64x128_S64x256_d1⟩]
    concatenates_S64x256_S64x256_S128x256_d0) bitsLt_bf16_f32

/-- `[[Wᵀ, 0], [0, Wᵀ]]` of a square weight `W : [128, 128]`. -/
def blk2 (W : FVec Ideal S128x128 .f32) : FVec Ideal S256x256 .bf16 :=
  truncf .bf16 (concatenate S256x256 0
    [⟨S128x256, concatenate S128x256 1 [⟨S128x128, transpose S128x128 [1, 0] W transposes_S128x128_S128x128_1_0⟩, ⟨S128x128, zeros S128x128 bcast_S_S128x128⟩] concatenates_S128x128_S128x128_S128x256_d1⟩,
     ⟨S128x256, concatenate S128x256 1 [⟨S128x128, zeros S128x128 bcast_S_S128x128⟩, ⟨S128x128, transpose S128x128 [1, 0] W transposes_S128x128_S128x128_1_0⟩] concatenates_S128x128_S128x128_S128x256_d1⟩]
    concatenates_S128x256_S128x256_S256x256_d0) bitsLt_bf16_f32

/-- The bias row `(b, b)`. -/
def bias2 (b : FVec Ideal S128 .f32) : FVec Ideal S1x256 .f32 :=
  shapeCast S1x256 (concatenate S256 0 [⟨S128, b⟩, ⟨S128, b⟩] concatenates_S128_S128_S256_d0) shapeCasts_S256_S1x256

theorem blk1_ll (W : FVec Ideal S128x64 .f32) (k : Fin 64) (c : Fin 128) :
    blk1 W (ix2 (⟨k.val, by omega⟩ : Fin 128) (⟨c.val, by omega⟩ : Fin 256)) = W (ix2 c k) := by
  unfold blk1
  rw [truncf_apply]
  rw [cat_rows_left _ _ concatenates_S64x256_S64x256_S128x256_d0 k (⟨c.val, by omega⟩ : Fin 256) _ rfl,
    cat_cols_left _ _ concatenates_S64x128_S64x128_S64x256_d1 k c _ rfl, transpose_ix2_apply]

theorem blk1_lr (W : FVec Ideal S128x64 .f32) (k : Fin 64) (c : Fin 128) :
    blk1 W (ix2 (⟨k.val, by omega⟩ : Fin 128) (⟨128 + c.val, by omega⟩ : Fin 256)) = 0 := by
  unfold blk1
  rw [truncf_apply]
  rw [cat_rows_left _ _ concatenates_S64x256_S64x256_S128x256_d0 k (⟨128 + c.val, by omega⟩ : Fin 256) _ rfl,
    cat_cols_right _ _ concatenates_S64x128_S64x128_S64x256_d1 k c _ rfl, zeros_apply]

theorem blk1_rl (W : FVec Ideal S128x64 .f32) (k : Fin 64) (c : Fin 128) :
    blk1 W (ix2 (⟨64 + k.val, by omega⟩ : Fin 128) (⟨c.val, by omega⟩ : Fin 256)) = 0 := by
  unfold blk1
  rw [truncf_apply]
  rw [cat_rows_right _ _ concatenates_S64x256_S64x256_S128x256_d0 k (⟨c.val, by omega⟩ : Fin 256) _ rfl,
    cat_cols_left _ _ concatenates_S64x128_S64x128_S64x256_d1 k c _ rfl, zeros_apply]

theorem blk1_rr (W : FVec Ideal S128x64 .f32) (k : Fin 64) (c : Fin 128) :
    blk1 W (ix2 (⟨64 + k.val, by omega⟩ : Fin 128) (⟨128 + c.val, by omega⟩ : Fin 256)) = W (ix2 c k) := by
  unfold blk1
  rw [truncf_apply]
  rw [cat_rows_right _ _ concatenates_S64x256_S64x256_S128x256_d0 k (⟨128 + c.val, by omega⟩ : Fin 256) _ rfl,
    cat_cols_right _ _ concatenates_S64x128_S64x128_S64x256_d1 k c _ rfl, transpose_ix2_apply]

theorem blk2_ll (W : FVec Ideal S128x128 .f32) (k : Fin 128) (c : Fin 128) :
    blk2 W (ix2 (⟨k.val, by omega⟩ : Fin 256) (⟨c.val, by omega⟩ : Fin 256)) = W (ix2 c k) := by
  unfold blk2
  rw [truncf_apply]
  rw [cat_rows_left _ _ concatenates_S128x256_S128x256_S256x256_d0 k (⟨c.val, by omega⟩ : Fin 256) _ rfl,
    cat_cols_left _ _ concatenates_S128x128_S128x128_S128x256_d1 k c _ rfl, transpose_ix2_apply]

theorem blk2_lr (W : FVec Ideal S128x128 .f32) (k : Fin 128) (c : Fin 128) :
    blk2 W (ix2 (⟨k.val, by omega⟩ : Fin 256) (⟨128 + c.val, by omega⟩ : Fin 256)) = 0 := by
  unfold blk2
  rw [truncf_apply]
  rw [cat_rows_left _ _ concatenates_S128x256_S128x256_S256x256_d0 k (⟨128 + c.val, by omega⟩ : Fin 256) _ rfl,
    cat_cols_right _ _ concatenates_S128x128_S128x128_S128x256_d1 k c _ rfl, zeros_apply]

theorem blk2_rl (W : FVec Ideal S128x128 .f32) (k : Fin 128) (c : Fin 128) :
    blk2 W (ix2 (⟨128 + k.val, by omega⟩ : Fin 256) (⟨c.val, by omega⟩ : Fin 256)) = 0 := by
  unfold blk2
  rw [truncf_apply]
  rw [cat_rows_right _ _ concatenates_S128x256_S128x256_S256x256_d0 k (⟨c.val, by omega⟩ : Fin 256) _ rfl,
    cat_cols_left _ _ concatenates_S128x128_S128x128_S128x256_d1 k c _ rfl, zeros_apply]

theorem blk2_rr (W : FVec Ideal S128x128 .f32) (k : Fin 128) (c : Fin 128) :
    blk2 W (ix2 (⟨128 + k.val, by omega⟩ : Fin 256) (⟨128 + c.val, by omega⟩ : Fin 256)) = W (ix2 c k) := by
  unfold blk2
  rw [truncf_apply]
  rw [cat_rows_right _ _ concatenates_S128x256_S128x256_S256x256_d0 k (⟨128 + c.val, by omega⟩ : Fin 256) _ rfl,
    cat_cols_right _ _ concatenates_S128x128_S128x128_S128x256_d1 k c _ rfl, transpose_ix2_apply]

theorem bias2_l (b : FVec Ideal S128 .f32) (c : Fin 128) : bias2 b (ix2 (0 : Fin 1) (⟨c.val, by omega⟩ : Fin 256)) = b (ix1 c) := by
  unfold bias2
  rw [shapeCast_a_1a_apply, cat_vec_left _ _ concatenates_S128_S128_S256_d0 c _ rfl]

theorem bias2_r (b : FVec Ideal S128 .f32) (c : Fin 128) : bias2 b (ix2 (0 : Fin 1) (⟨128 + c.val, by omega⟩ : Fin 256)) = b (ix1 c) := by
  unfold bias2
  rw [shapeCast_a_1a_apply, cat_vec_right _ _ concatenates_S128_S128_S256_d0 c _ rfl]

/-- The first layer's host-built matrix and bias are `diag (W1ᵀ, W1ᵀ)` and `(b1, b1)`. -/
theorem blockDiag1 (W : FVec Ideal S128x64 .f32) (b : FVec Ideal S128 .f32) :
    BlockDiag (n := 128) (n' := 256) (K := 64) (N := 128) rfl rfl (fun k c => (blk1 W (ix2 k c) : EReal)) (fun c => (bias2 b (ix2 (0 : Fin 1) c) : EReal))
      (fun c k => (W (ix2 c k) : EReal)) (fun c => (b (ix1 c) : EReal)) :=
  ⟨blk1_ll W, blk1_rl W, blk1_lr W, blk1_rr W, bias2_l b, bias2_r b⟩

/-- A square layer's host-built matrix and bias are `diag (Wᵀ, Wᵀ)` and `(b, b)`. -/
theorem blockDiag2 (W : FVec Ideal S128x128 .f32) (b : FVec Ideal S128 .f32) :
    BlockDiag (n := 256) (n' := 256) (K := 128) (N := 128) rfl rfl (fun k c => (blk2 W (ix2 k c) : EReal)) (fun c => (bias2 b (ix2 (0 : Fin 1) c) : EReal))
      (fun c k => (W (ix2 c k) : EReal)) (fun c => (b (ix1 c) : EReal)) :=
  ⟨blk2_ll W, blk2_rl W, blk2_lr W, blk2_rr W, bias2_l b, bias2_r b⟩

/-! ## The paired edge features -/

/-- Row `p` of the paired matrix, first half: row `2p` of the edge features. -/
theorem paired_l (E : FVec Ideal S800000x64 .f32) (p : Fin 400000) (k : Fin 64) :
    shapeCast S400000x128 E shapeCasts_S800000x64_S400000x128 (ix2 p (⟨k.val, by omega⟩ : Fin 128)) = E (ix2 (⟨2 * p.val, by omega⟩ : Fin 800000) k) := by
  refine shapeCast_apply E _ _ _ ?_
  rw [Shape.rowMajor_val_two, Shape.rowMajor_val_two]
  show 2 * p.val * 64 + k.val = p.val * 128 + k.val
  omega

/-- Second half: row `2p + 1`. -/
theorem paired_r (E : FVec Ideal S800000x64 .f32) (p : Fin 400000) (k : Fin 64) :
    shapeCast S400000x128 E shapeCasts_S800000x64_S400000x128 (ix2 p (⟨64 + k.val, by omega⟩ : Fin 128)) = E (ix2 (⟨2 * p.val + 1, by omega⟩ : Fin 800000) k) := by
  refine shapeCast_apply E _ _ _ ?_
  rw [Shape.rowMajor_val_two, Shape.rowMajor_val_two]
  show (2 * p.val + 1) * 64 + k.val = p.val * 128 + (64 + k.val)
  omega

/-- The head's bias `[1]` read as `[1, 1]`. -/
theorem bias4 (b : FVec Ideal S1 .f32) : shapeCast S1x1 b shapeCasts_S1_S1x1 (ix2 (0 : Fin 1) (0 : Fin 1)) = b (ix1 (0 : Fin 1)) :=
  shapeCast_a_1a_apply b shapeCasts_S1_S1x1 0 0

/-! ## What the region finds in each window's array -/

variable (m : (ℓ : Loc nD τ sig) → Buf (Elt Ideal) ℓ)

theorem V_v0 (c : Dev nD) : (V m c main_v0 : S400000x128.Idx → Elt Ideal .f32)
    = shapeCast S400000x128 (m ((c : Thread nD τ).loc main_arg2)) shapeCasts_S800000x64_S400000x128 := by
  show StableHlo.after hostOps0 (fun b => m (c, b)) (Proc.devRef .tc main_v0) = _
  after_results
  rfl

theorem V_v6 (c : Dev nD) : (V m c main_v6 : S128x256.Idx → Elt Ideal .bf16) = blk1 (m ((c : Thread nD τ).loc main_arg3)) := by
  show StableHlo.after hostOps0 (fun b => m (c, b)) (Proc.devRef .tc main_v6) = _
  after_results
  rfl

theorem V_v12 (c : Dev nD) : (V m c main_v12 : S256x256.Idx → Elt Ideal .bf16) = blk2 (m ((c : Thread nD τ).loc main_arg5)) := by
  show StableHlo.after hostOps0 (fun b => m (c, b)) (Proc.devRef .tc main_v12) = _
  after_results
  rfl

theorem V_v18 (c : Dev nD) : (V m c main_v18 : S256x256.Idx → Elt Ideal .bf16) = blk2 (m ((c : Thread nD τ).loc main_arg7)) := by
  show StableHlo.after hostOps0 (fun b => m (c, b)) (Proc.devRef .tc main_v18) = _
  after_results
  rfl

theorem V_v20 (c : Dev nD) : (V m c main_v20 : S1x256.Idx → Elt Ideal .f32) = bias2 (m ((c : Thread nD τ).loc main_arg4)) := by
  show StableHlo.after hostOps0 (fun b => m (c, b)) (Proc.devRef .tc main_v20) = _
  after_results
  rfl

theorem V_v22 (c : Dev nD) : (V m c main_v22 : S1x256.Idx → Elt Ideal .f32) = bias2 (m ((c : Thread nD τ).loc main_arg6)) := by
  show StableHlo.after hostOps0 (fun b => m (c, b)) (Proc.devRef .tc main_v22) = _
  after_results
  rfl

theorem V_v24 (c : Dev nD) : (V m c main_v24 : S1x256.Idx → Elt Ideal .f32) = bias2 (m ((c : Thread nD τ).loc main_arg8)) := by
  show StableHlo.after hostOps0 (fun b => m (c, b)) (Proc.devRef .tc main_v24) = _
  after_results
  rfl

theorem V_v25 (c : Dev nD) : (V m c main_v25 : S1x1.Idx → Elt Ideal .f32)
    = shapeCast S1x1 (m ((c : Thread nD τ).loc main_arg10)) shapeCasts_S1_S1x1 := by
  show StableHlo.after hostOps0 (fun b => m (c, b)) (Proc.devRef .tc main_v25) = _
  after_results
  rfl

end Cert.KernelIdeal.Entry

end
-- ==== Proof.Spec.lean ====
/-
  What both programs compute, as one function of the argument arrays: entry `e` of the result is the network
  (three dense layers with `tanh`, then the logistic head) applied to row `e` of the edge features.  The node
  features and the edge index do not enter.
-/
import proofs.«115613_j996432412877_2_alg».proof.Proof.Mlp
import Idealize.ShloMosaic.Lib.ValueIdx

noncomputable section

namespace Cert.Spec

open Idealize.ShloMosaic Idealize.ShloMosaic.ValueIdx Cert.Mlp

/-- The network on edge `e`. -/
def edgeOut (E : (⟨2, ![800000, 64]⟩ : Shape).Idx → EReal) (W1 : (⟨2, ![128, 64]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![1, 128]⟩ : Shape).Idx → EReal) (b4 : (⟨1, ![1]⟩ : Shape).Idx → EReal) (e : Fin 800000) : EReal :=
  mlp (fun (c : Fin 128) (k : Fin 64) => W1 (ix2 c k)) (fun c : Fin 128 => b1 (ix1 c))
    (fun (c : Fin 128) (k : Fin 128) => W2 (ix2 c k)) (fun c : Fin 128 => b2 (ix1 c))
    (fun (c : Fin 128) (k : Fin 128) => W3 (ix2 c k)) (fun c : Fin 128 => b3 (ix1 c))
    (fun k : Fin 128 => W4 (ix2 (0 : Fin 1) k)) (b4 (ix1 (0 : Fin 1))) (fun k : Fin 64 => E (ix2 e k))

/-- The result array: one number per edge. -/
def G (E : (⟨2, ![800000, 64]⟩ : Shape).Idx → EReal) (W1 : (⟨2, ![128, 64]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 128]⟩ : Shape).Idx → EReal) (b3 : (⟨1, ![128]⟩ : Shape).Idx → EReal)
    (W4 : (⟨2, ![1, 128]⟩ : Shape).Idx → EReal) (b4 : (⟨1, ![1]⟩ : Shape).Idx → EReal) : (⟨1, ![800000]⟩ : Shape).Idx → EReal :=
  fun i => edgeOut E W1 b1 W2 b2 W3 b3 W4 b4 (i 0)

end Cert.Spec

end
-- ==== Proof.Block.lean ====
/-
  One row of one block, end to end.  If the block's row `r` is the paired row `p` of the edge features (its first
  half row `2p`, its second half row `2p + 1`), the matrices are the host's block-diagonal ones and the bias rows the
  doubled ones, then the body writes the network of edge `2p` to column 0 and the network of edge `2p + 1` to
  column 1: the pairing law of the block-diagonal layers, applied three times, then the head on each half.
-/
import proofs.«115613_j996432412877_2_alg».proof.Proof.Body
import proofs.«115613_j996432412877_2_alg».proof.Proof.Entry
import proofs.«115613_j996432412877_2_alg».proof.Proof.Spec

set_option maxRecDepth 16384

noncomputable section

namespace Cert.KernelIdeal.Block

open Cert.KernelIdeal Cert.KernelIdeal.Gen Cert.KernelIdeal.Body Cert.KernelIdeal.Entry Idealize.ShloMosaic Idealize.ShloMosaic.ValueIdx Cert.Mlp Cert.Spec

/-- The zero offsets of a whole-block load, as a constant function. -/
theorem zero_offsets : (![0, 0] : Fin 2 → Nat) = fun _ => 0 := funext fun a => by fin_cases a <;> rfl

/-- The two stores' rectangles: column 1 and column 0 of the [8000, 2] block. -/
theorem col1_emb (r : Fin 8000) : (ix2 r (1 : Fin 2) : S8000x2.Idx) = r0_7.emb (ix2 r (0 : Fin 1)) :=
  funext fun a => Fin.ext (by
    match a with
    | ⟨0, _⟩ => show r.val = 0 + 1 * r.val; omega
    | ⟨1, _⟩ => rfl)

theorem col0_emb (r : Fin 8000) : (ix2 r (0 : Fin 2) : S8000x2.Idx) = r0_6.emb (ix2 r (0 : Fin 1)) :=
  funext fun a => Fin.ext (by
    match a with
    | ⟨0, _⟩ => show r.val = 0 + 1 * r.val; omega
    | ⟨1, _⟩ => rfl)

theorem col0_not_mem (r : Fin 8000) : (ix2 r (0 : Fin 2) : S8000x2.Idx) ∉ r0_7.set := by
  rw [Rect.mem_set_unit]
  intro h
  exact Nat.not_succ_le_zero 0 (h 1).1

/-- Two stores that tile the [8000, 2] block, the later one into column 1: column 0 reads the earlier store's value,
    column 1 the later's. -/
theorem canon_two (P2 P1 : Vec Ideal S8000x1 .f32) (r : Fin 8000) :
    View.canon ([⟨r0_7, P2⟩, ⟨r0_6, P1⟩] : List (View.Piece (Elt Ideal) S8000x2 .f32)) (ix2 r (0 : Fin 2)) = P1 (ix2 r (0 : Fin 1))
    ∧ View.canon ([⟨r0_7, P2⟩, ⟨r0_6, P1⟩] : List (View.Piece (Elt Ideal) S8000x2 .f32)) (ix2 r (1 : Fin 2)) = P2 (ix2 r (0 : Fin 1)) := by
  constructor
  · have h := View.canon_cons_of_not_mem (Val := Elt Ideal) (⟨r0_7, P2⟩ : View.Piece (Elt Ideal) S8000x2 .f32) [⟨r0_6, P1⟩] (col0_not_mem r)
    rw [h, col0_emb r]
    exact View.canon_cons_emb (Val := Elt Ideal) r0_6 P1 [] (ix2 r (0 : Fin 1))
  · rw [col1_emb r]
    exact View.canon_cons_emb (Val := Elt Ideal) r0_7 P2 [⟨r0_6, P1⟩] (ix2 r (0 : Fin 1))

/-- What the body leaves in the output block, column by column, over any loaded blocks. -/
theorem out_cols (x0 : Vec Ideal S8000x128 .f32) (x1 : Vec Ideal S128x256 .bf16) (x2 : Vec Ideal S1x256 .f32) (x3 : Vec Ideal S256x256 .bf16)
    (x4 : Vec Ideal S1x256 .f32) (x5 : Vec Ideal S256x256 .bf16) (x6 : Vec Ideal S1x256 .f32) (x7 : Vec Ideal S1x128 .f32) (x8 : Vec Ideal S1x1 .f32) (r : Fin 8000) :
    out0_9 x0 x1 x2 x3 x4 x5 x6 x7 x8 (ix2 r (0 : Fin 2))
        = head (fun k : Fin 128 => row3 x0 x1 x2 x3 x4 x5 x6 r ⟨k.val, by omega⟩) (fun k : Fin 128 => (x7 (ix2 (0 : Fin 1) k) : EReal)) (x8 (ix2 (0 : Fin 1) (0 : Fin 1)) : EReal)
    ∧ out0_9 x0 x1 x2 x3 x4 x5 x6 x7 x8 (ix2 r (1 : Fin 2))
        = head (fun k : Fin 128 => row3 x0 x1 x2 x3 x4 x5 x6 r ⟨128 + k.val, by omega⟩) (fun k : Fin 128 => (x7 (ix2 (0 : Fin 1) k) : EReal)) (x8 (ix2 (0 : Fin 1) (0 : Fin 1)) : EReal) := by
  unfold out0_9
  simp only [View.ld_unit_zero (S := S8000x128) zero_offsets, View.ld_unit_zero (S := S128x256) zero_offsets, View.ld_unit_zero (S := S1x256) zero_offsets,
    View.ld_unit_zero (S := S256x256) zero_offsets, View.ld_unit_zero (S := S1x128) zero_offsets, View.ld_unit_zero (S := S1x1) zero_offsets]
  exact ⟨((canon_two _ _ r).1).trans (pay1_apply x0 x1 x2 x3 x4 x5 x6 x7 x8 r), ((canon_two _ _ r).2).trans (pay2_apply x0 x1 x2 x3 x4 x5 x6 x7 x8 r)⟩

/-- The row of a block whose inputs are the host-built arrays: the two columns are the network on edges `2p`, `2p + 1`. -/
theorem out_row (x0 : Vec Ideal S8000x128 .f32) (r : Fin 8000) (p : Fin 400000)
    (E : FVec Ideal S800000x64 .f32) (W1 : FVec Ideal S128x64 .f32) (b1 : FVec Ideal S128 .f32) (W2 : FVec Ideal S128x128 .f32) (b2 : FVec Ideal S128 .f32)
    (W3 : FVec Ideal S128x128 .f32) (b3 : FVec Ideal S128 .f32) (W4 : FVec Ideal S1x128 .f32) (b4 : FVec Ideal S1 .f32)
    (hl : ∀ k : Fin 64, x0 (ix2 r (⟨k.val, by omega⟩ : Fin 128)) = E (ix2 (⟨2 * p.val, by omega⟩ : Fin 800000) k))
    (hr : ∀ k : Fin 64, x0 (ix2 r (⟨64 + k.val, by omega⟩ : Fin 128)) = E (ix2 (⟨2 * p.val + 1, by omega⟩ : Fin 800000) k)) :
    out0_9 x0 (blk1 W1) (bias2 b1) (blk2 W2) (bias2 b2) (blk2 W3) (bias2 b3) W4 (shapeCast S1x1 b4 shapeCasts_S1_S1x1) (ix2 r (0 : Fin 2))
        = edgeOut E W1 b1 W2 b2 W3 b3 W4 b4 ⟨2 * p.val, by omega⟩
    ∧ out0_9 x0 (blk1 W1) (bias2 b1) (blk2 W2) (bias2 b2) (blk2 W3) (bias2 b3) W4 (shapeCast S1x1 b4 shapeCasts_S1_S1x1) (ix2 r (1 : Fin 2))
        = edgeOut E W1 b1 W2 b2 W3 b3 W4 b4 ⟨2 * p.val + 1, by omega⟩ := by
  obtain ⟨e0, e1⟩ := out_cols x0 (blk1 W1) (bias2 b1) (blk2 W2) (bias2 b2) (blk2 W3) (bias2 b3) W4 (shapeCast S1x1 b4 shapeCasts_S1_S1x1) r
  constructor
  · rw [e0]
    unfold row3
    rw [paired_left (blockDiag1 W1 b1) (blockDiag2 W2 b2) (blockDiag2 W3 b3), bias4]
    unfold edgeOut
    exact congrArg (mlp _ _ _ _ _ _ _ _) (funext hl)
  · rw [e1]
    unfold row3
    rw [paired_right (blockDiag1 W1 b1) (blockDiag2 W2 b2) (blockDiag2 W3 b3), bias4]
    unfold edgeOut
    exact congrArg (mlp _ _ _ _ _ _ _ _) (funext hr)

end Cert.KernelIdeal.Block

end
-- ==== Proof.KernelValue.lean ====
/-
  From blocks to the result.  Grid point `t` stages rows `8000 t … 8000 t + 7999` of the paired edge features and the
  whole of every weight and bias; it writes back rows `8000 t …` of the [400000, 2] output, whose entry `(p, j)` is
  therefore the network on edge `2p + j`.  The fifty blocks cover the output (row `p` is in block `p / 8000`), and the
  host's final reshape reads entry `e` of the result at `(e / 2, e % 2)`: the network on edge `e`.
-/
import proofs.«115613_j996432412877_2_alg».proof.Proof.Block
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Entry Cert.KernelIdeal.Block Idealize.ShloMosaic Idealize.ShloMosaic.ValueIdx
  Idealize.ShloMosaic.TcCoe Idealize.SL.Sem Idealize.ShloMosaic.StableHlo Cert.Spec
open Idealize.ShloMosaic.Pipeline (Dat)

variable (m : (ℓ : Loc nD τ sig) → Buf (Elt Ideal) ℓ) (ρ : Dev nD → PrngReg)

/-- The paired output array: entry `(p, j)` is the network on edge `2p + j`. -/
def Gp (c : Dev nD) : S400000x2.Idx → EReal := fun i =>
  edgeOut (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    ⟨2 * (i 0).val + (i 1).val, by have h0 := idx2_lt0 i; have h1 := idx2_lt1 i; omega⟩

/-- The index maps over the grid: the streamed windows move one block per point along the rows, the others stay. -/
theorem index_maps : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `r` of the streamed input block at point `t` is row `8000 t + r` of the paired matrix. -/
theorem iblk0_apply (c : Dev nD) (t : Fin cfg0.N) (r : Fin 8000) (k : Fin 128) (p : Fin 400000) (hp : p.val = 8000 * t.val + r.val) :
    (iblk m c 0 t : S8000x128.Idx → Elt Ideal .f32) (ix2 r k)
      = shapeCast S400000x128 (m ((c : Thread nD τ).loc main_arg2)) shapeCasts_S800000x64_S400000x128 (ix2 p k) := by
  obtain ⟨h0, h1, -⟩ := index_maps t
  rw [← V_v0 m c]
  unfold iblk
  rw [View.read_apply]
  show V m c main_v0 _ = V m c main_v0 _
  congr 1
  funext a
  apply Fin.ext
  match a with
  | ⟨0, _⟩ => show win0_0.index t 0 * 8000 + 1 * r.val = p.val; rw [h0, hp]; omega
  | ⟨1, _⟩ => show win0_0.index t 1 * 128 + 1 * k.val = k.val; rw [h1]; omega

/-- Window 1's block is the whole array at every point. -/
theorem iblk1_eq (c : Dev nD) (t : Fin cfg0.N) : (iblk m c 1 t : S128x256.Idx → Elt Ideal .bf16) = blk1 (m ((c : Thread nD τ).loc main_arg3)) := by
  obtain ⟨-, -, -, -, h0, h1, -⟩ := index_maps t
  rw [← V_v6 m c]
  funext y
  unfold iblk
  rw [View.read_apply]
  show V m c main_v6 _ = V m c main_v6 y
  congr 1
  funext a
  apply Fin.ext
  match a with
  | ⟨0, _⟩ => show win0_1.index t 0 * 128 + 1 * (y 0).val = (y 0).val; rw [h0]; omega
  | ⟨1, _⟩ => show win0_1.index t 1 * 256 + 1 * (y 1).val = (y 1).val; rw [h1]; omega

/-- Window 2's block is the whole array at every point. -/
theorem iblk2_eq (c : Dev nD) (t : Fin cfg0.N) : (iblk m c 2 t : S1x256.Idx → Elt Ideal .f32) = bias2 (m ((c : Thread nD τ).loc main_arg4)) := by
  obtain ⟨-, -, -, -, -, -, h0, h1, -⟩ := index_maps t
  rw [← V_v20 m c]
  funext y
  unfold iblk
  rw [View.read_apply]
  show V m c main_v20 _ = V m c main_v20 y
  congr 1
  funext a
  apply Fin.ext
  match a with
  | ⟨0, _⟩ => show win0_2.index t 0 * 1 + 1 * (y 0).val = (y 0).val; rw [h0]; omega
  | ⟨1, _⟩ => show win0_2.index t 1 * 256 + 1 * (y 1).val = (y 1).val; rw [h1]; omega

/-- Window 3's block is the whole array at every point. -/
theorem iblk3_eq (c : Dev nD) (t : Fin cfg0.N) : (iblk m c 3 t : S256x256.Idx → Elt Ideal .bf16) = blk2 (m ((c : Thread nD τ).loc main_arg5)) := by
  obtain ⟨-, -, -, -, -, -, -, -, h0, h1, -⟩ := index_maps t
  rw [← V_v12 m c]
  funext y
  unfold iblk
  rw [View.read_apply]
  show V m c main_v12 _ = V m c main_v12 y
  congr 1
  funext a
  apply Fin.ext
  match a with
  | ⟨0, _⟩ => show win0_3.index t 0 * 256 + 1 * (y 0).val = (y 0).val; rw [h0]; omega
  | ⟨1, _⟩ => show win0_3.index t 1 * 256 + 1 * (y 1).val = (y 1).val; rw [h1]; omega

/-- Window 4's block is the whole array at every point. -/
theorem iblk4_eq (c : Dev nD) (t : Fin cfg0.N) : (iblk m c 4 t : S1x256.Idx → Elt Ideal .f32) = bias2 (m ((c : Thread nD τ).loc main_arg6)) := by
  obtain ⟨-, -, -, -, -, -, -, -, -, -, h0, h1, -⟩ := index_maps t
  rw [← V_v22 m c]
  funext y
  unfold iblk
  rw [View.read_apply]
  show V m c main_v22 _ = V m c main_v22 y
  congr 1
  funext a
  apply Fin.ext
  match a with
  | ⟨0, _⟩ => show win0_4.index t 0 * 1 + 1 * (y 0).val = (y 0).val; rw [h0]; omega
  | ⟨1, _⟩ => show win0_4.index t 1 * 256 + 1 * (y 1).val = (y 1).val; rw [h1]; omega

/-- Window 5's block is the whole array at every point. -/
theorem iblk5_eq (c : Dev nD) (t : Fin cfg0.N) : (iblk m c 5 t : S256x256.Idx → Elt Ideal .bf16) = blk2 (m ((c : Thread nD τ).loc main_arg7)) := by
  obtain ⟨-, -, -, -, -, -, -, -, -, -, -, -, h0, h1, -⟩ := index_maps t
  rw [← V_v18 m c]
  funext y
  unfold iblk
  rw [View.read_apply]
  show V m c main_v18 _ = V m c main_v18 y
  congr 1
  funext a
  apply Fin.ext
  match a with
  | ⟨0, _⟩ => show win0_5.index t 0 * 256 + 1 * (y 0).val = (y 0).val; rw [h0]; omega
  | ⟨1, _⟩ => show win0_5.index t 1 * 256 + 1 * (y 1).val = (y 1).val; rw [h1]; omega

/-- Window 6's block is the whole array at every point. -/
theorem iblk6_eq (c : Dev nD) (t : Fin cfg0.N) : (iblk m c 6 t : S1x256.Idx → Elt Ideal .f32) = bias2 (m ((c : Thread nD τ).loc main_arg8)) := by
  obtain ⟨-, -, -, -, -, -, -, -, -, -, -, -, -, -, h0, h1, -⟩ := index_maps t
  rw [← V_v24 m c]
  funext y
  unfold iblk
  rw [View.read_apply]
  show V m c main_v24 _ = V m c main_v24 y
  congr 1
  funext a
  apply Fin.ext
  match a with
  | ⟨0, _⟩ => show win0_6.index t 0 * 1 + 1 * (y 0).val = (y 0).val; rw [h0]; omega
  | ⟨1, _⟩ => show win0_6.index t 1 * 256 + 1 * (y 1).val = (y 1).val; rw [h1]; omega

/-- Window 7's block is the whole array at every point. -/
theorem iblk7_eq (c : Dev nD) (t : Fin cfg0.N) : (iblk m c 7 t : S1x128.Idx → Elt Ideal .f32) = m ((c : Thread nD τ).loc main_arg9) := by
  obtain ⟨-, -, -, -, -, -, -, -, -, -, -, -, -, -, -, -, h0, h1, -⟩ := index_maps t
  rw [← V_main_arg9 m c]
  funext y
  unfold iblk
  rw [View.read_apply]
  show V m c main_arg9 _ = V m c main_arg9 y
  congr 1
  funext a
  apply Fin.ext
  match a with
  | ⟨0, _⟩ => show win0_7.index t 0 * 1 + 1 * (y 0).val = (y 0).val; rw [h0]; omega
  | ⟨1, _⟩ => show win0_7.index t 1 * 128 + 1 * (y 1).val = (y 1).val; rw [h1]; omega

/-- Window 8's block is the whole array at every point. -/
theorem iblk8_eq (c : Dev nD) (t : Fin cfg0.N) : (iblk m c 8 t : S1x1.Idx → Elt Ideal .f32) = shapeCast S1x1 (m ((c : Thread nD τ).loc main_arg10)) shapeCasts_S1_S1x1 := by
  obtain ⟨-, -, -, -, -, -, -, -, -, -, -, -, -, -, -, -, -, -, h0, h1⟩ := index_maps t
  rw [← V_v25 m c]
  funext y
  unfold iblk
  rw [View.read_apply]
  show V m c main_v25 _ = V m c main_v25 y
  congr 1
  funext a
  apply Fin.ext
  match a with
  | ⟨0, _⟩ => show win0_8.index t 0 * 1 + 1 * (y 0).val = (y 0).val; rw [h0]; omega
  | ⟨1, _⟩ => show win0_8.index t 1 * 1 + 1 * (y 1).val = (y 1).val; rw [h1]; omega

/-- WHAT POINT `t` WRITES BACK is block `t` of the paired output. -/
theorem writeback_eq (c : Dev nD) (t : Fin cfg0.N) :
    (dats m 0 c).flushed 9 t = ((cfg0.win 9).blk t).view.read (Elt Ideal) (Gp m c) := by
  show (cfg0.win 9).cut (grid0.coords t) ((dats m 0 c).after 9 t) = _
  rw [after0_9]
  obtain ⟨-, -, h90, h91, -⟩ := index_maps t
  have hN : grid0.N = 50 := N_0
  have ht : t.val < 50 := hN ▸ t.isLt
  funext y
  obtain ⟨r, j, rfl⟩ : ∃ (r : Fin 8000) (j : Fin 2), y = ix2 r j := ⟨y 0, y 1, eq_ix2 y⟩
  rw [iblk1_eq m c t, iblk2_eq m c t, iblk3_eq m c t, iblk4_eq m c t, iblk5_eq m c t, iblk6_eq m c t, iblk7_eq m c t, iblk8_eq m c t, View.read_apply]
  have key := out_row (iblk m c 0 t) r (⟨8000 * t.val + r.val, by omega⟩ : Fin 400000)
    (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (fun k => (iblk0_apply m c t r _ _ rfl).trans (paired_l _ _ k))
    (fun k => (iblk0_apply m c t r _ _ rfl).trans (paired_r _ _ k))
  unfold Gp
  match j with
  | ⟨0, _⟩ =>
    refine key.1.trans (congrArg (edgeOut (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Fin.ext ?_))
    show 2 * (8000 * t.val + r.val) = 2 * (win0_9.index t 0 * 8000 + 1 * r.val) + (win0_9.index t 1 * 2 + 1 * 0)
    rw [h90, h91]; omega
  | ⟨1, _⟩ =>
    refine key.2.trans (congrArg (edgeOut (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Fin.ext ?_))
    show 2 * (8000 * t.val + r.val) + 1 = 2 * (win0_9.index t 0 * 8000 + 1 * r.val) + (win0_9.index t 1 * 2 + 1 * 1)
    rw [h90, h91]; omega

/-- An index of the output is in point `t`'s block iff each coordinate is in the block's range on its axis. -/
theorem mem_rows (t : Fin cfg0.N) (i : S400000x2.Idx) :
    i ∈ ((cfg0.win 9).blk t).view.set ↔ ∀ a : Fin 2, win0_9.index t a * S8000x2.size a ≤ (i a).val ∧ (i a).val < win0_9.index t a * S8000x2.size a + S8000x2.size a := by
  show i ∈ ((View.whole main_v26).slice (win0_9.rect t)).set ↔ _
  rw [View.set_slice_whole, Rect.mem_set_unit]
  exact Iff.rfl

/-- THE OUTPUT ARRAY after the run is the paired output: row `p` is written by point `p / 8000`. -/
theorem output_eq (c : Dev nD) : (dats m 0 c).arrAt 9 cfg0.N = Gp m c :=
  (dats m 0 c).arrAt_eq_of_cover 9 (Gp m c) (fun t _ => writeback_eq m c t) fun i => by
    have hi0 : (i 0).val < 400000 := (i 0).isLt
    have hi1 : (i 1).val < 2 := (i 1).isLt
    have hN : grid0.N = 50 := N_0
    have hq : (i 0).val / 8000 < grid0.N := by rw [hN]; omega
    obtain ⟨-, -, h90, h91, -⟩ := index_maps ⟨(i 0).val / 8000, hq⟩
    refine ⟨⟨(i 0).val / 8000, hq⟩, flush0_9 _, ?_⟩
    rw [mem_rows]
    intro a
    match a with
    | ⟨0, _⟩ =>
      show win0_9.index ⟨(i 0).val / 8000, hq⟩ 0 * 8000 ≤ (i 0).val ∧ (i 0).val < win0_9.index ⟨(i 0).val / 8000, hq⟩ 0 * 8000 + 8000
      rw [h90]; show (i 0).val / 8000 * 8000 ≤ (i 0).val ∧ (i 0).val < (i 0).val / 8000 * 8000 + 8000; omega
    | ⟨1, _⟩ =>
      show win0_9.index ⟨(i 0).val / 8000, hq⟩ 1 * 2 ≤ (i 1).val ∧ (i 1).val < win0_9.index ⟨(i 0).val / 8000, hq⟩ 1 * 2 + 2
      rw [h91]; omega

/-- THE RESULT: the host's reshape of the paired output is the specification of the arguments. -/
theorem result_eq (c : Dev nD) :
    Pipeline.afterTail₀ cfgs (dats m) 0 (V0 m) [hostOps1] c main_v27
      = G (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v27) = _
  after_results
  have hA : Pipeline.withArrays (cfgs 0).spec c (V0 m c) (fun w => (dats m 0 c).arrAt w (cfgs 0).N) (Proc.devRef .tc main_v26) = Gp m c :=
    (Pipeline.withArrays_arr spec0 launch0.win.arr_inj c _ _ 9).trans (output_eq m c)
  rw [hA]
  funext i
  obtain ⟨e, rfl⟩ : ∃ e : Fin 800000, i = ix1 e := ⟨i 0, eq_ix1 i⟩
  show shapeCast S800000 (Gp m c) shapeCasts_S400000x2_S800000 (ix1 e) = _
  have he : e.val < 800000 := e.isLt
  refine (shapeCast_apply (Gp m c) shapeCasts_S400000x2_S800000 (ix1 e)
    (ix2 (⟨e.val / 2, by omega⟩ : Fin 400000) (⟨e.val % 2, by omega⟩ : Fin 2)) ?_).trans ?_
  · rw [Shape.rowMajor_val_two, Shape.rowMajor_val_one]
    show e.val / 2 * 2 + e.val % 2 = e.val
    omega
  · unfold Gp G
    exact congrArg (edgeOut (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Fin.ext (by show 2 * (e.val / 2) + e.val % 2 = e.val; omega))

/-- THE RUN, read: the result is the specification of the arguments, and the arguments end unchanged. -/
theorem run : θ_run defs (onTc (τ := τ) (main (F := Ideal))) ⟨m, fun _ => 0, ρ⟩ (fun r => ∀ c : Dev nD,
      r.2.mem ((c.tc : Thread nD τ).loc main_v27) = G (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v27 (Pipeline.mem_restRefs_of main_v27 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).1 7).trans (((dats m 0 c).arrAt_in 7 rfl _).trans ((A_eq m c 7).trans (V_main_arg9 m c))),
      ((h c).2 main_arg10 (Pipeline.mem_restRefs_of main_arg10 (by decide) (by decide))).trans (W_main_arg10 m (dats m) c)⟩) (run_main m ρ)

end Cert.KernelIdeal.KValue

end
-- ==== Proof.RefValue.lean ====
/-
  The reference, read one layer at a time: each `dot_general` contracts the features against a transposed weight,
  so entry `(e, c)` of a layer is `tanh (∑ k, h (e, k) · W (c, k) + b c)`; the last product is against the one
  row of `W4`; and `1 / (1 + exp (−s))` is the logistic function.  Hence the reference's result is the
  specification `G` of the arguments.
-/
import proofs.«115613_j996432412877_2_alg».proof.Proof.Gen.ReferenceIdeal.Read
import proofs.«115613_j996432412877_2_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.Mlp

variable (x2 : (⟨S800000x64, .f32⟩ : BufTy).Contents (Elt Ideal)) (x3 : (⟨S128x64, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S1x128, .f32⟩ : BufTy).Contents (Elt Ideal)) (x10 : (⟨S1, .f32⟩ : BufTy).Contents (Elt Ideal))

/-- The first layer. -/
theorem layer1 (e : Fin 800000) (c : Fin 128) :
    val_main_v5 (F := Ideal) x2 x3 x4 (ix2 e c)
      = dense (fun k : Fin 64 => (x2 (ix2 e k) : EReal)) (fun (c : Fin 128) (k : Fin 64) => (x3 (ix2 c k) : EReal)) (fun c : Fin 128 => (x4 (ix1 c) : EReal)) c := by
  rw [val_main_v5_apply, val_main_v4_apply, val_main_v1_apply, val_main_v3_apply, val_main_v2_apply]
  have hb : idx_main_v2 (idx_main_v3 (ix2 e c)) = ix1 c := funext fun a => Fin.ext (by match a with | ⟨0, _⟩ => rfl)
  rw [hb]
  refine congrArg (fun s => Ideal.tanh (s + _)) (Finset.sum_congr rfl fun k _ => ?_)
  have hl : lidx_main_v1 (ix2 e c) k = ix2 e k := funext fun a => Fin.ext (by match a with | ⟨0, _⟩ => rfl | ⟨1, _⟩ => rfl)
  have hr : idx_main_v0 (ridx_main_v1 (ix2 e c) k) = ix2 c k := funext fun a => Fin.ext (by match a with | ⟨0, _⟩ => rfl | ⟨1, _⟩ => rfl)
  rw [val_main_v0_apply, hl, hr]

/-- The second layer, over the first. -/
theorem layer2 (e : Fin 800000) (c : Fin 128) :
    val_main_v11 (F := Ideal) x2 x3 x4 x5 x6 (ix2 e c)
      = dense (fun k : Fin 128 => (val_main_v5 (F := Ideal) x2 x3 x4 (ix2 e k) : EReal)) (fun (c : Fin 128) (k : Fin 128) => (x5 (ix2 c k) : EReal)) (fun c : Fin 128 => (x6 (ix1 c) : EReal)) c := by
  rw [val_main_v11_apply, val_main_v10_apply, val_main_v7_apply, val_main_v9_apply, val_main_v8_apply]
  have hb : idx_main_v8 (idx_main_v9 (ix2 e c)) = ix1 c := funext fun a => Fin.ext (by match a with | ⟨0, _⟩ => rfl)
  rw [hb]
  refine congrArg (fun s => Ideal.tanh (s + _)) (Finset.sum_congr rfl fun k _ => ?_)
  have hl : lidx_main_v7 (ix2 e c) k = ix2 e k := funext fun a => Fin.ext (by match a with | ⟨0, _⟩ => rfl | ⟨1, _⟩ => rfl)
  have hr : idx_main_v6 (ridx_main_v7 (ix2 e c) k) = ix2 c k := funext fun a => Fin.ext (by match a with | ⟨0, _⟩ => rfl | ⟨1, _⟩ => rfl)
  rw [val_main_v6_apply, hl, hr]

/-- The third layer, over the second. -/
theorem layer3 (e : Fin 800000) (c : Fin 128) :
    val_main_v17 (F := Ideal) x2 x3 x4 x5 x6 x7 x8 (ix2 e c)
      = dense (fun k : Fin 128 => (val_main_v11 (F := Ideal) x2 x3 x4 x5 x6 (ix2 e k) : EReal)) (fun (c : Fin 128) (k : Fin 128) => (x7 (ix2 c k) : EReal)) (fun c : Fin 128 => (x8 (ix1 c) : EReal)) c := by
  rw [val_main_v17_apply, val_main_v16_apply, val_main_v13_apply, val_main_v15_apply, val_main_v14_apply]
  have hb : idx_main_v14 (idx_main_v15 (ix2 e c)) = ix1 c := funext fun a => Fin.ext (by match a with | ⟨0, _⟩ => rfl)
  rw [hb]
  refine congrArg (fun s => Ideal.tanh (s + _)) (Finset.sum_congr rfl fun k _ => ?_)
  have hl : lidx_main_v13 (ix2 e c) k = ix2 e k := funext fun a => Fin.ext (by match a with | ⟨0, _⟩ => rfl | ⟨1, _⟩ => rfl)
  have hr : idx_main_v12 (ridx_main_v13 (ix2 e c) k) = ix2 c k := funext fun a => Fin.ext (by match a with | ⟨0, _⟩ => rfl | ⟨1, _⟩ => rfl)
  rw [val_main_v12_apply, hl, hr]

/-- The float word `0x3F800000` is the number one. -/
theorem ofBits_one : Ideal.ofBits .f32 0x3F800000#32 = 1 := by
  simp [Ideal.ofBits, Ideal.ieee, -EReal.coe_mul]; norm_num

/-- The head: the product with the row of `W4`, the bias, and `1 / (1 + exp (−s))`. -/
theorem out_apply (e : Fin 800000) :
    val_main_v29 (F := Ideal) x2 x3 x4 x5 x6 x7 x8 x9 x10 (ix1 e)
      = head (fun k : Fin 128 => (val_main_v17 (F := Ideal) x2 x3 x4 x5 x6 x7 x8 (ix2 e k) : EReal)) (fun k : Fin 128 => (x9 (ix2 (0 : Fin 1) k) : EReal)) (x10 (ix1 (0 : Fin 1)) : EReal) := by
  have h29 : idx_main_v29 (ix1 e) = ix2 e (0 : Fin 1) := funext fun a => Fin.ext (by
    match a with
    | ⟨0, _⟩ => exact Nat.div_one _
    | ⟨1, _⟩ => rfl)
  rw [val_main_v29_apply, h29, val_main_v28_apply, val_main_v27_apply, val_main_cst_0_apply, val_main_v26_apply, val_main_v25_apply, val_main_cst_apply,
    val_main_v24_apply, val_main_v23_apply, val_main_v22_apply, val_main_v19_apply, val_main_v21_apply, val_main_v20_apply]
  have hb : idx_main_v20 (idx_main_v21 (ix2 e (0 : Fin 1))) = ix1 (0 : Fin 1) := funext fun a => Fin.ext (by match a with | ⟨0, _⟩ => rfl)
  rw [hb]
  show Ideal.div (Ideal.ofBits .f32 0x3F800000#32) (Ideal.ofBits .f32 0x3F800000#32 + Ideal.exp (-(_ + _))) = _
  rw [ofBits_one]
  unfold head
  refine congrArg (fun s => Ideal.logistic (s + _)) (Finset.sum_congr rfl fun k _ => ?_)
  have hl : lidx_main_v19 (ix2 e (0 : Fin 1)) k = ix2 e k := funext fun a => Fin.ext (by match a with | ⟨0, _⟩ => rfl | ⟨1, _⟩ => rfl)
  have hr : idx_main_v18 (ridx_main_v19 (ix2 e (0 : Fin 1)) k) = ix2 (0 : Fin 1) k := funext fun a => Fin.ext (by match a with | ⟨0, _⟩ => rfl | ⟨1, _⟩ => rfl)
  rw [val_main_v18_apply, hl, hr]

/-- The reference's result is the specification of its arguments. -/
theorem ref_eq : val_main_v29 (F := Ideal) x2 x3 x4 x5 x6 x7 x8 x9 x10 = Cert.Spec.G x2 x3 x4 x5 x6 x7 x8 x9 x10 := by
  funext i
  obtain ⟨e, rfl⟩ : ∃ e : Fin 800000, i = ix1 e := ⟨i 0, eq_ix1 i⟩
  rw [out_apply]
  unfold Cert.Spec.G Cert.Spec.edgeOut mlp
  refine congrArg (fun h => head h _ _) (funext fun k => ?_)
  rw [layer3]
  refine congrArg (fun h => dense h _ _ k) (funext fun k => ?_)
  rw [layer2]
  refine congrArg (fun h => dense h _ _ k) (funext fun k => ?_)
  rw [layer1]

end Cert.ReferenceIdeal.RefValue

end
-- ==== Proof.lean ====
/-
  The kernel is a four-layer network applied row by row to the edge features: three dense layers with `tanh` and a
  logistic head.  The reference applies it to each of the 800000 rows `[64]`.  The kernel pairs consecutive rows into
  400000 rows `[128]`, multiplies by block-diagonal copies `diag (Wᵀ, Wᵀ)` of each weight so that the two halves of
  a paired row never mix, takes the head once per half, and un-pairs the two output columns by a reshape.

  Over the extended reals the two agree entry by entry with no finiteness hypothesis: a zero block of a weight
  contributes `x · 0 = 0` to a sum for every extended real `x`, sums may be split and regrouped freely, both
  programs use one `tanh`, and the reference's `1 / (1 + exp (−s))` is the kernel's logistic function.  The
  node features and the edge index enter neither program.

  The pieces: LibBlockDiag (the pairing law of one block-diagonal layer on plain rows), LibCatPair (two pieces side by
  side read at an index), Mlp (the network and its pairing law), Spec (the common result `G`), Body (the kernel's body at an
  index), Entry (the host-built arrays at an index), Block (one row of one block), KernelValue (blocks, cover, the final
  reshape, the run) and RefValue (the reference is `G`).
-/
import proofs.«115613_j996432412877_2_alg».proof.Defs
import proofs.«115613_j996432412877_2_alg».proof.Proof.Gen.Kernel
import proofs.«115613_j996432412877_2_alg».proof.Proof.Gen.Kernel.Skeleton
import proofs.«115613_j996432412877_2_alg».proof.Proof.Gen.Kernel.Launch
import proofs.«115613_j996432412877_2_alg».proof.Proof.Gen.Kernel.Points
import proofs.«115613_j996432412877_2_alg».proof.Proof.Gen.Kernel.Frame
import proofs.«115613_j996432412877_2_alg».proof.Proof.Gen.KernelIdeal
import proofs.«115613_j996432412877_2_alg».proof.Proof.Gen.KernelIdeal.Skeleton
import proofs.«115613_j996432412877_2_alg».proof.Proof.Gen.KernelIdeal.Launch
import proofs.«115613_j996432412877_2_alg».proof.Proof.Gen.KernelIdeal.Points
import proofs.«115613_j996432412877_2_alg».proof.Proof.Gen.KernelIdeal.Frame
import proofs.«115613_j996432412877_2_alg».proof.Proof.Gen.ReferenceIdeal
import proofs.«115613_j996432412877_2_alg».proof.Proof.Gen.ReferenceIdeal.Run
import proofs.«115613_j996432412877_2_alg».proof.Proof.Gen.ReferenceIdeal.Read
import proofs.«115613_j996432412877_2_alg».proof.Proof.Gen.Pre_finite_inputs
import proofs.«115613_j996432412877_2_alg».proof.Proof.KernelValue
import proofs.«115613_j996432412877_2_alg».proof.Proof.RefValue
import Idealize.ShloMosaic.Adequacy
import Idealize.ShloMosaic.Init

noncomputable section

namespace Cert.Proof

open Idealize.ShloMosaic Idealize.ShloMosaic.TcCoe Idealize.SL.Sem

/-- The three programs run, fault nowhere and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the network of each edge's features: the kernel by its blocks and the pairing
    law, the reference layer by layer; the arguments agree, so the results are equal. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v29_eq, Cert.ReferenceIdeal.RefValue.ref_eq, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
